-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S65536 : Shape := ⟨1, ![65536]⟩
abbrev S32768 : Shape := ⟨1, ![32768]⟩
abbrev S32768x1 : Shape := ⟨2, ![32768, 1]⟩
abbrev S2x1x1 : Shape := ⟨3, ![2, 1, 1]⟩
abbrev S2048x512 : Shape := ⟨2, ![2048, 512]⟩
abbrev S2048x1 : Shape := ⟨2, ![2048, 1]⟩
abbrev S1x1x1 : Shape := ⟨3, ![1, 1, 1]⟩
abbrev S2048 : Shape := ⟨1, ![2048]⟩
abbrev S1 : Shape := ⟨1, ![1]⟩
abbrev S1x1 : Shape := ⟨2, ![1, 1]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S32768, .i32⟩
  | .hbm, ⟨3, _⟩ => ⟨S32768x1, .i32⟩
  | .hbm, ⟨4, _⟩ => ⟨S32768, .i32⟩
  | .hbm, ⟨5, _⟩ => ⟨S32768x1, .i32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x1, .i32⟩
  | .local _ .vmem, ⟨5, _⟩ => ⟨S2048x1, .i32⟩
  | .local _ .vmem, ⟨6, _⟩ => ⟨S2048x1, .i32⟩
  | .local _ .vmem, ⟨7, _⟩ => ⟨S2048x1, .i32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S65536_S32768_0 : S65536.Slices ![0] S32768
  shapeCasts_S32768_S32768x1 : S32768.ShapeCasts S32768x1
  slices_S65536_S32768_32768 : S65536.Slices ![32768] S32768
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x1_S1 : S2048x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .i32 = 32 ∨ (Rect.block (s := S32768x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S32768x1.size a
  hwx0_3 : ∀ i : grid0.Coords, EltTy.bits .i32 = 32 ∨ (Rect.block (s := S32768x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S65536x512 : Shape := ⟨2, ![65536, 512]⟩
abbrev S65536 : Shape := ⟨1, ![65536]⟩
abbrev S32768x512 : Shape := ⟨2, ![32768, 512]⟩
abbrev S32768 : Shape := ⟨1, ![32768]⟩
abbrev S_ : Shape := ⟨0, ![]⟩
abbrev S1 : Shape := ⟨1, ![1]⟩

abbrev nBuf : Space → Nat
  | .hbm => 29
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S32768x512, .f32⟩
  | .hbm, ⟨3, _⟩ => ⟨S32768x512, .f32⟩
  | .hbm, ⟨4, _⟩ => ⟨S32768, .i32⟩
  | .hbm, ⟨5, _⟩ => ⟨S32768, .i32⟩
  | .hbm, ⟨6, _⟩ => ⟨S32768, .i1⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S_, .f32⟩
  | .hbm, ⟨18, _⟩ => ⟨S32768, .f32⟩
  | .hbm, ⟨19, _⟩ => ⟨S32768, .f32⟩
  | .hbm, ⟨20, _⟩ => ⟨S_, .f32⟩
  | .hbm, ⟨21, _⟩ => ⟨S32768, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  slices_S65536x512_S32768x512_0_0 : S65536x512.Slices ![0, 0] S32768x512
  slices_S65536x512_S32768x512_32768_0 : S65536x512.Slices ![32768, 0] S32768x512
  slices_S65536_S32768_0 : S65536.Slices ![0] S32768
  slices_S65536_S32768_32768 : S65536.Slices ![32768] S32768
  reducesTo_S32768x512_S32768_d1 : S32768x512.ReducesTo [1] S32768
  h_S_ : 0 < S_.numel
  bcast_S_S32768 : S_.BroadcastsInDim S32768 (![] : Fin 0 → Fin S32768.rank)
  reducesTo_S32768_S_d0 : S32768.ReducesTo [0] S_
  shapeCasts_S_S1 : S_.ShapeCasts S1

variable [Facts₀]

class Facts : Prop extends Facts₀ where

variable [Facts]
-- ==== Proof.SetupK.lean ====
/-
  The kernel region's surroundings, shared by everything that follows.

  @main first slices the label vector into its two halves and reshapes each to a column (four host operations), then
  runs the kernel over a 2 × 8 grid, then sums the kernel's two output cells, divides and reshapes (five host
  operations). Here: the buffer contents when the region is entered (`Ventry`), the block of each window's array at a
  grid point (`iblk`), the body's two branch conditions in closed form over the 16 grid points — "first block of a
  cell" at the points ≡ 0 (mod 8), "last block of a cell" at the points ≡ 7 (mod 8) —, where the output window is
  idle (everywhere but the last blocks), and names for the staging and scratch memrefs the body is called with.
-/
import proofs.«162703_j70763881169378_2_alg».proof.Proof.Gen.Kernel.Launch
import proofs.«162703_j70763881169378_2_alg».proof.Proof.Gen.Kernel.Skeleton
import proofs.«162703_j70763881169378_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers around the region -/

/-- Core `c`'s TensorCore buffers at launch, as a valuation. -/
abbrev Vlaunch (c : Dev nD) : Valuation τ sig (Elt F) := fun b => m (c, b)
/-- When the region is entered: the four operations on the labels have run. -/
abbrev Ventry (c : Dev nD) : Valuation τ sig (Elt F) := StableHlo.after hostOps0 (Vlaunch m c)
/-- The same read at a TensorCore reference. -/
abbrev V (c : Dev nD) (b : Ref sig .tc) : Buf (Elt F) ((c : Thread nD τ).loc b) := Ventry m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Grid position `n` as a point (positions past the grid wrap around; only `n < 16` is ever used). -/
def pt (n : ℕ) : Fin cfg0.N := ⟨n % cfg0.N, Nat.mod_lt _ (by rw [show cfg0.N = 16 from N_0]; decide)⟩

theorem pt_val (t : Fin cfg0.N) : pt t.val = t := Fin.ext (Nat.mod_eq_of_lt t.isLt)

/-! ## The body's two conditions -/

/-- "This is the first block of a cell": the running total is reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last block of a cell": the running total is written to the output cell. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last blocks the output cell's buffer is neither stored into nor written back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-! ## The memrefs the body is called with -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
/-- The running total's scratch buffer. -/
abbrev scM : Memref sig .tc .vmem S1x1x1 .f32 := Memref.whole cc0_scratch0

/-- The scoped buffers no window stages are the scratch alone, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.BodyRunsK.lean ====
/-
  The kernel body, run once per kind of grid point.

  The body always loads its four input blocks and the running total, adds the block's sum of per-pair losses to the
  total and stores it back (the payload `k0_pay2`). At the FIRST block of a cell it first resets the total to zero
  (`k0_pay1`), so the update is applied to the reset value whatever the scratch held; at the LAST block of a cell it then
  copies the new total into the output cell's buffer. Each theorem: from the six buffers owned whole, the body runs to
  its return with the inputs as they were, the scratch at the new total, and the output buffer untouched (first and
  middle blocks) or at the new total (last block).
-/
import proofs.«162703_j70763881169378_2_alg».proof.Proof.SetupK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem z3 : (![0, 0, 0] : Fin 3 → ℕ) = fun _ => 0 := by funext a; fin_cases a <;> rfl
theorem z2 : (![0, 0] : Fin 2 → ℕ) = fun _ => 0 := by funext a; fin_cases a <;> rfl

/-- A MIDDLE block: the total so far is updated in place. -/
theorem runMid (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S1x1x1 .f32) (h6 : a6.IsWhole) (a7 : Memref sig .tc .vmem S1x1x1 .f32) (h7 : a7.IsWhole) (hc0 : ¬condFirst i) (hc1 : ¬condLast i)
    (x0 x1 : Vec F S2048x512 .f32) (l0 l1 : Vec F S2048x1 .i32) (xo xs : Vec F S1x1x1 .f32) (E : Set ℕ) (K : PUnit → sProp 𝕄) :
    iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare (k0_pay2 x0 x1 l0 l1 xs)) -∗ K ⟨⟩))
      ⊢ wp frame (wpE (defs₀ (F := F)) Variants.none c none) E (cc0__siamese_kernel i a2 h2 a3 h3 a4 h4 a5 h5 a6 h6 a7 h7) K := by
  simp only [cc0__siamese_kernel_eq_skeleton]; unfold cc0__siamese_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  iexists _; isplitr; swap; · iexact HS
  ipureintro
  rw [View.read_writes_eq_canon _ _ _ (fun y => View.cover_of_tiledL _ S1x1x1.size (by sl_kernel_rfl) y)]
  rw [View.canon_unit_zero z3]
  simp only [View.readAt_eq_ld, h2.read_unread, h3.read_unread, h4.read_unread, h5.read_unread, h7.read_unread,
    View.ld_unit_zero (S := S2048x512) z2, View.ld_unit_zero (S := S2048x1) z2, View.ld_unit_zero (S := S1x1x1) z3]
  try rfl

/-- The FIRST block of a cell: the total is reset, then updated. -/
theorem runFirst (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S1x1x1 .f32) (h6 : a6.IsWhole) (a7 : Memref sig .tc .vmem S1x1x1 .f32) (h7 : a7.IsWhole) (hc0 : condFirst i) (hc1 : ¬condLast i)
    (x0 x1 : Vec F S2048x512 .f32) (l0 l1 : Vec F S2048x1 .i32) (xo xs : Vec F S1x1x1 .f32) (E : Set ℕ) (K : PUnit → sProp 𝕄) :
    iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare (k0_pay2 x0 x1 l0 l1 (k0_pay1 (F := F)))) -∗ K ⟨⟩))
      ⊢ wp frame (wpE (defs₀ (F := F)) Variants.none c none) E (cc0__siamese_kernel i a2 h2 a3 h3 a4 h4 a5 h5 a6 h6 a7 h7) K := by
  simp only [cc0__siamese_kernel_eq_skeleton]; unfold cc0__siamese_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  iexists _; isplitr; swap; · iexact HS
  ipureintro
  rw [View.read_writes_eq_canon _ _ _ (fun y => View.cover_of_tiledL _ S1x1x1.size (by sl_kernel_rfl) y)]
  rw [View.canon_cons_unit_zero z3]
  sl_unfold_run_names
  rw [View.readCov_unit_zero _ z3]
  simp only [View.readAt_eq_ld, h2.read_unread, h3.read_unread, h4.read_unread, h5.read_unread, h7.read_unread,
    View.ld_unit_zero (S := S2048x512) z2, View.ld_unit_zero (S := S2048x1) z2, View.ld_unit_zero (S := S1x1x1) z3]

/-- The LAST block of a cell: the total is updated and copied to the output cell. -/
theorem runLast (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S1x1x1 .f32) (h6 : a6.IsWhole) (a7 : Memref sig .tc .vmem S1x1x1 .f32) (h7 : a7.IsWhole) (hc0 : ¬condFirst i) (hc1 : condLast i)
    (x0 x1 : Vec F S2048x512 .f32) (l0 l1 : Vec F S2048x1 .i32) (xo xs : Vec F S1x1x1 .f32) (E : Set ℕ) (K : PUnit → sProp 𝕄) :
    iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare (k0_pay2 x0 x1 l0 l1 xs) ∗ owns (c : Thread nD τ) a7 fullShare (k0_pay2 x0 x1 l0 l1 xs)) -∗ K ⟨⟩))
      ⊢ wp frame (wpE (defs₀ (F := F)) Variants.none c none) E (cc0__siamese_kernel i a2 h2 a3 h3 a4 h4 a5 h5 a6 h6 a7 h7) K := by
  simp only [cc0__siamese_kernel_eq_skeleton]; unfold cc0__siamese_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; swap; · iexact H4
    ipureintro
    rw [View.read_writes_eq_canon _ _ _ (fun y => View.cover_of_tiledL _ S1x1x1.size (by sl_kernel_rfl) y)]
    rw [View.canon_unit_zero z3]
    sl_unfold_run_names
    rw [View.readCov_unit_zero _ z3]
    simp only [View.readAt_eq_ld, h2.read_unread, h3.read_unread, h4.read_unread, h5.read_unread, h7.read_unread,
    View.ld_unit_zero (S := S2048x512) z2, View.ld_unit_zero (S := S2048x1) z2, View.ld_unit_zero (S := S1x1x1) z3]
  iexists _; isplitr; swap; · iexact HS
  ipureintro
  sl_unfold_run_names
  rw [View.read_writes_eq_canon _ _ _ (fun y => View.cover_of_tiledL _ S1x1x1.size (by sl_kernel_rfl) y)]
  rw [View.canon_unit_zero z3]
  simp only [View.readAt_eq_ld, h2.read_unread, h3.read_unread, h4.read_unread, h5.read_unread, h7.read_unread,
    View.ld_unit_zero (S := S2048x512) z2, View.ld_unit_zero (S := S2048x1) z2, View.ld_unit_zero (S := S1x1x1) z3]

end Cert.Kernel.Hand

end
-- ==== Proof.SpecK.lean ====
/-
  The pairwise contrastive loss, as the kernel computes it, stated over plain arrays.

  The input x : f32[65536, 512] is read as 32768 PAIRS of rows: pair r is (row r, row 32768 + r), with labels
  (label r, label 32768 + r). The kernel walks the pairs in 16 consecutive blocks of 2048 pairs, eight blocks for
  each of its two output cells, and keeps one running total: at the first block of a cell the total is reset to
  zero, at every block the block's sum of per-pair losses is added to it, and after the last block of a cell the
  total is that cell's result. The two cells are then summed, divided by 131072 and reshaped to f32[1].

  Here that is written down once, for any float instance: the blocks as index functions of the argument arrays
  (`rowsLo`, `rowsHi`, `labLo`, `labHi`), the running total after each block as a recursion over the body's two
  payloads (`totalAfter`: the reset value and the block's update), the two cells (`cells`) and the arithmetic after
  the kernel (`finish`).
-/
import proofs.«162703_j70763881169378_2_alg».proof.Proof.Gen.Kernel.Skeleton
import Idealize.ShloMosaic.Lib.ValueIdx

noncomputable section

namespace Cert.Kernel.Pairs

open Idealize.ShloMosaic Idealize.ShloMosaic.ValueIdx Cert.Kernel Cert.Kernel.Gen

variable {F : FTy → Type} [FloatOps F]

/-- Block `b` (2048 rows) of the FIRST members of the pairs: rows 2048 b … 2048 b + 2047 of `x`. -/
def rowsLo (x : Vec F S65536x512 .f32) (b : ℕ) : Vec F S2048x512 .f32 := fun y =>
  x (ix2 (⟨(2048 * b + (y 0).val) % 65536, Nat.mod_lt _ (by decide)⟩ : Fin 65536) (⟨(y 1).val, (y 1).isLt⟩ : Fin 512))

/-- Block `b` of the SECOND members: rows 32768 + 2048 b … of `x`. -/
def rowsHi (x : Vec F S65536x512 .f32) (b : ℕ) : Vec F S2048x512 .f32 := fun y =>
  x (ix2 (⟨(32768 + 2048 * b + (y 0).val) % 65536, Nat.mod_lt _ (by decide)⟩ : Fin 65536) (⟨(y 1).val, (y 1).isLt⟩ : Fin 512))

/-- Block `b` of the first members' labels, as a column. -/
def labLo (l : Vec F S65536 .i32) (b : ℕ) : Vec F S2048x1 .i32 := fun y =>
  l (ix1 (⟨(2048 * b + (y 0).val) % 65536, Nat.mod_lt _ (by decide)⟩ : Fin 65536))

/-- Block `b` of the second members' labels, as a column. -/
def labHi (l : Vec F S65536 .i32) (b : ℕ) : Vec F S2048x1 .i32 := fun y =>
  l (ix1 (⟨(32768 + 2048 * b + (y 0).val) % 65536, Nat.mod_lt _ (by decide)⟩ : Fin 65536))

/-- The running total after block `n`: the block's update (`k0_pay2`: the total so far plus the block's sum of
    per-pair losses) applied to the reset value (`k0_pay1`: zero) at the first block of a cell (`n` a multiple of 8)
    and to the total after block `n - 1` otherwise. -/
def totalAfter (X1 X2 : ℕ → Vec F S2048x512 .f32) (L1 L2 : ℕ → Vec F S2048x1 .i32) : ℕ → Vec F S1x1x1 .f32
  | 0 => k0_pay2 (X1 0) (X2 0) (L1 0) (L2 0) (k0_pay1 (F := F))
  | n + 1 => k0_pay2 (X1 (n + 1)) (X2 (n + 1)) (L1 (n + 1)) (L2 (n + 1))
      (if (n + 1) % 8 = 0 then k0_pay1 (F := F) else totalAfter X1 X2 L1 L2 n)

theorem totalAfter_zero (X1 X2 : ℕ → Vec F S2048x512 .f32) (L1 L2 : ℕ → Vec F S2048x1 .i32) :
    totalAfter X1 X2 L1 L2 0 = k0_pay2 (X1 0) (X2 0) (L1 0) (L2 0) (k0_pay1 (F := F)) := rfl

theorem totalAfter_succ (X1 X2 : ℕ → Vec F S2048x512 .f32) (L1 L2 : ℕ → Vec F S2048x1 .i32) (n : ℕ) :
    totalAfter X1 X2 L1 L2 (n + 1) = k0_pay2 (X1 (n + 1)) (X2 (n + 1)) (L1 (n + 1)) (L2 (n + 1))
      (if (n + 1) % 8 = 0 then k0_pay1 (F := F) else totalAfter X1 X2 L1 L2 n) := rfl

/-- The two output cells: cell `p` is the running total after the last (eighth) block of its group. -/
def cells (x : Vec F S65536x512 .f32) (l : Vec F S65536 .i32) : Vec F S2x1x1 .f32 := fun j =>
  totalAfter (rowsLo x) (rowsHi x) (labLo l) (labHi l) (8 * (j 0).val + 7) (ix3 (0 : Fin 1) (0 : Fin 1) (0 : Fin 1))

/-- The arithmetic after the kernel: the cells summed from zero, divided by 131072, as a one-element vector. -/
def finish (v : Vec F S2x1x1 .f32) : Vec F S1 .f32 :=
  shapeCast S1 (Host.divf (F := F) (Host.reduceAdd (F := F) v (constant (F := F) S_ .f32 0x00000000#32) reducesTo_S2x1x1_S_d0_1_2 h_S_)
    (constant (F := F) S_ .f32 0x48000000#32)) shapeCasts_S_S1

end Cert.Kernel.Pairs

end
-- ==== Proof.DataK.lean ====
/-
  The proof data of the kernel region, and the body obligation.

  At grid position `n` (the 16 points in order) the body works on block `n` of each of its four inputs. What the
  scratch holds after position `n` is `tot n`: the running total of the per-pair losses of the blocks of the current
  cell up to and including block `n` (`Pairs.totalAfter` over the windows' blocks). The region's invariant before
  position `n` is the scratch at `tot (n - 1)` (at anything before the first position); each input's buffer is left
  as fetched; the output cell's buffer is left untouched except at the last block of a cell, where it is left at
  `tot n` and written back. The two windows on `x` each hold half of its share.
-/
import proofs.«162703_j70763881169378_2_alg».proof.Proof.BodyRunsK
import proofs.«162703_j70763881169378_2_alg».proof.Proof.SpecK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the running total, by grid position -/

def X1 (c : Dev nD) (n : ℕ) : Vec F S2048x512 .f32 := iblk m c 0 (pt n)
def X2 (c : Dev nD) (n : ℕ) : Vec F S2048x512 .f32 := iblk m c 1 (pt n)
def L1 (c : Dev nD) (n : ℕ) : Vec F S2048x1 .i32 := iblk m c 2 (pt n)
def L2 (c : Dev nD) (n : ℕ) : Vec F S2048x1 .i32 := iblk m c 3 (pt n)

/-- What the scratch holds after position `n`. -/
def tot (c : Dev nD) (n : ℕ) : Vec F S1x1x1 .f32 := Pairs.totalAfter (X1 m c) (X2 m c) (L1 m c) (L2 m c) n

/-- The running total after a point: the block's update of the reset value at the first block of a cell, of the
    total after the point before otherwise. -/
theorem tot_eq (c : Dev nD) (t : Fin cfg0.N) :
    tot m c t.val = k0_pay2 (iblk m c 0 t) (iblk m c 1 t) (iblk m c 2 t) (iblk m c 3 t)
      (if t.val % 8 = 0 then k0_pay1 (F := F) else tot m c (t.val - 1)) := by
  obtain ⟨n, hn⟩ := t
  have e : pt n = ⟨n, hn⟩ := pt_val ⟨n, hn⟩
  cases n with
  | zero =>
    unfold tot; rw [Pairs.totalAfter_zero]; unfold X1 X2 L1 L2; rw [e]; rfl
  | succ k =>
    unfold tot; rw [Pairs.totalAfter_succ]; unfold X1 X2 L1 L2; rw [e]; rfl

/-! ## The invariant and the proof data -/

/-- Before position `n`: the scratch at anything before the first, at the total after position `n - 1` afterwards. -/
def PhiS (c : Dev nD) : ℕ → sProp 𝕄
  | 0 => iprop(∃ d, owns (c : Thread nD τ) scM fullShare d)
  | n + 1 => owns (c : Thread nD τ) scM fullShare (tot m c n)

theorem PhiS_pos (c : Dev nD) (n : ℕ) (hz : n ≠ 0) : PhiS m c n = owns (c : Thread nD τ) scM fullShare (tot m c (n - 1)) := by
  cases n with
  | zero => exact absurd rfl hz
  | succ k => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tot m c t.val
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tot m c t.val := by dsimp only [dats]

/-- Every input is fetched at every point: its buffer holds its block when the body runs. -/
theorem before_0 (c : Dev nD) (t : Fin cfg0.N) (d) : (dats m 0 c).before 0 t d = iblk m c 0 t := by
  unfold Dat.before; rw [if_pos (fetch0_0 t)]; unfold Dat.fetched Dat.blockOf iblk; rw [A_eq]; try rfl
theorem before_1 (c : Dev nD) (t : Fin cfg0.N) (d) : (dats m 0 c).before 1 t d = iblk m c 1 t := by
  unfold Dat.before; rw [if_pos (fetch0_1 t)]; unfold Dat.fetched Dat.blockOf iblk; rw [A_eq]; try rfl
theorem before_2 (c : Dev nD) (t : Fin cfg0.N) (d) : (dats m 0 c).before 2 t d = iblk m c 2 t := by
  unfold Dat.before; rw [if_pos (fetch0_2 t)]; unfold Dat.fetched Dat.blockOf iblk; rw [A_eq]; try rfl
theorem before_3 (c : Dev nD) (t : Fin cfg0.N) (d) : (dats m 0 c).before 3 t d = iblk m c 3 t := by
  unfold Dat.before; rw [if_pos (fetch0_3 t)]; unfold Dat.fetched Dat.blockOf iblk; rw [A_eq]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = owns (c : Thread nD τ) scM fullShare (tot m c t.val) from rfl]
  rw [show (dats m 0 c).Φ t.castSucc = PhiS m c t.val from by dsimp only [dats]; simp only [Fin.coe_castSucc]]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [tot_eq m c t]
  by_cases hF : t.val % 8 = 0
  · have hL : ¬ t.val % 8 = 7 := by omega
    have hc0 : condFirst (grid0.coords t) := (hcondFirst t).mpr hF
    have hc1 : ¬condLast (grid0.coords t) := fun h => hL ((hcondLast t).mp h)
    rw [Dat.leavesExact_idle (dats m 0 c) 4 t (idle4 t hc1) (noFlush4 t hc1), if_pos hF]
    have hΦ : PhiS m c t.val ⊢ (iprop(∃ d, owns (c : Thread nD τ) scM fullShare d) : sProp 𝕄) := by
      by_cases hz : t.val = 0
      · rw [hz]; exact Idealize.SL.BI.Entails.refl _
      · rw [PhiS_pos m c _ hz]; iintro H; iexists _; iexact H
    iintro ⟨HΦ, Ho, ⟨%d0, H0⟩, ⟨%d1, H1⟩, ⟨%d2, H2⟩, ⟨%d3, H3⟩, ⟨%d4, H4⟩⟩
    ihave HS := hΦ $$ HΦ
    icases HS with ⟨%xs, HS⟩
    iapply (runFirst c (grid0.coords t) (ms0 t) (hs0 t) (ms1 t) (hs1 t) (ms2 t) (hs2 t) (ms3 t) (hs3 t) (ms4 t) (hs4 t) scM (Memref.isWhole_whole _) hc0 hc1
      (iblk m c 0 t) (iblk m c 1 t) (iblk m c 2 t) (iblk m c 3 t) ((dats m 0 c).before 4 t d4) xs Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexists _; iexact H4
  · have hz : t.val ≠ 0 := fun h => hF (by rw [h])
    have hc0 : ¬condFirst (grid0.coords t) := fun h => hF ((hcondFirst t).mp h)
    rw [PhiS_pos m c _ hz, if_neg hF]
    by_cases hL : t.val % 8 = 7
    · have hc1 : condLast (grid0.coords t) := (hcondLast t).mpr hL
      rw [show (dats m 0 c).leavesExact 4 t = owns (c : Thread nD τ) (ms4 t) fullShare ((dats m 0 c).after 4 t) from by
        unfold Dat.leavesExact; rw [live4 t hc1], after_4, tot_eq m c t, if_neg hF]
      iintro ⟨HS, Ho, ⟨%d0, H0⟩, ⟨%d1, H1⟩, ⟨%d2, H2⟩, ⟨%d3, H3⟩, ⟨%d4, H4⟩⟩
      iapply (runLast c (grid0.coords t) (ms0 t) (hs0 t) (ms1 t) (hs1 t) (ms2 t) (hs2 t) (ms3 t) (hs3 t) (ms4 t) (hs4 t) scM (Memref.isWhole_whole _) hc0 hc1
        (iblk m c 0 t) (iblk m c 1 t) (iblk m c 2 t) (iblk m c 3 t) ((dats m 0 c).before 4 t d4) (tot m c (t.val - 1)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hc1 : ¬condLast (grid0.coords t) := fun h => hL ((hcondLast t).mp h)
      rw [Dat.leavesExact_idle (dats m 0 c) 4 t (idle4 t hc1) (noFlush4 t hc1)]
      iintro ⟨HS, Ho, ⟨%d0, H0⟩, ⟨%d1, H1⟩, ⟨%d2, H2⟩, ⟨%d3, H3⟩, ⟨%d4, H4⟩⟩
      iapply (runMid c (grid0.coords t) (ms0 t) (hs0 t) (ms1 t) (hs1 t) (ms2 t) (hs2 t) (ms3 t) (hs3 t) (ms4 t) (hs4 t) scM (Memref.isWhole_whole _) hc0 hc1
        (iblk m c 0 t) (iblk m c 1 t) (iblk m c 2 t) (iblk m c 3 t) ((dats m 0 c).before 4 t d4) (tot m c (t.val - 1)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LaunchK.lean ====
/-
  The launch: @main as three segments — the four host operations on the labels, the kernel region, the five host
  operations on the kernel's result — and its run.

  Between segments the core holds its twelve unscoped buffers whole at a valuation. The region is entered by handing
  the pipeline its windows' arrays: the label columns and the result array whole, and `x`, which TWO windows read,
  split in two half shares, one per window; the other eight buffers bypass the region. At the exit the two halves of
  `x` are joined again (an input array ends as it began), the result array is at what the write-backs left, and the
  host operations after the region run from there. The final state is read at the result and at the two arguments.
-/
import proofs.«162703_j70763881169378_2_alg».proof.Proof.DataK
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

abbrev Lp : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-! ## The unscoped buffers, one by one -/

omit [FloatOps F] in
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v1) ↦{fullShare} W main_v1)
          ∗ (((c : Thread nD τ).loc main_v3) ↦{fullShare} W main_v3) ∗ (((c : Thread nD τ).loc main_v4) ↦{fullShare} W main_v4)) := by
  unfold Pipeline.arrBufs
  rw [bigSep_eq_bigSepL_of_eq [main_arg0, main_v1, main_v3, main_v4] (by decide) (by decide)]
  rfl

omit [FloatOps F] in
/-- The twelve unscoped buffers held at a valuation: the four behind the windows' arrays, then the other eight. -/
theorem held_list (c : Dev nD) (W : Valuation τ sig (Elt F)) :
    (StableHlo.held (c : Thread nD τ) (Pipeline.ucRefs τ sig) W : sProp 𝕄)
      = iprop(((((c : Thread nD τ).loc main_arg0) ↦{fullShare} W (Proc.devRef .tc main_arg0)) ∗ (((c : Thread nD τ).loc main_v1) ↦{fullShare} W (Proc.devRef .tc main_v1))
          ∗ (((c : Thread nD τ).loc main_v3) ↦{fullShare} W (Proc.devRef .tc main_v3)) ∗ (((c : Thread nD τ).loc main_v4) ↦{fullShare} W (Proc.devRef .tc main_v4)))
        ∗ ((((c : Thread nD τ).loc main_arg1) ↦{fullShare} W (Proc.devRef .tc main_arg1)) ∗ (((c : Thread nD τ).loc main_v0) ↦{fullShare} W (Proc.devRef .tc main_v0)) ∗ (((c : Thread nD τ).loc main_v2) ↦{fullShare} W (Proc.devRef .tc main_v2)) ∗ (((c : Thread nD τ).loc main_cst) ↦{fullShare} W (Proc.devRef .tc main_cst)) ∗ (((c : Thread nD τ).loc main_v5) ↦{fullShare} W (Proc.devRef .tc main_v5)) ∗ (((c : Thread nD τ).loc main_cst_0) ↦{fullShare} W (Proc.devRef .tc main_cst_0)) ∗ (((c : Thread nD τ).loc main_v6) ↦{fullShare} W (Proc.devRef .tc main_v6)) ∗ (((c : Thread nD τ).loc main_v7) ↦{fullShare} W (Proc.devRef .tc main_v7)))) := by
  rw [← Pipeline.unscopedBufs_held c W, Pipeline.unscopedBufs_split₀ cfgs (0 : Fin 1) winFacts₀0.arr_unscoped c, arrBufs_list, unscopedRest0_eq]

/-- The windows' arrays as the pipeline holds them: `x` at a half share for each of its two windows, the label columns
    and the result whole. -/
theorem arrays_list (c : Dev nD) (Fv : (w : Fin cfg0.W) → Buf (Elt F) ((cfg0.win w).arr.view.loc (c : Thread nD τ))) :
    (dats m 0 c).arrays Fv = iprop((((c : Thread nD τ).loc main_arg0) ↦{fullShare.left} Fv 0) ∗ (((c : Thread nD τ).loc main_arg0) ↦{fullShare.right} Fv 1)
        ∗ (((c : Thread nD τ).loc main_v1) ↦{fullShare} Fv 2) ∗ (((c : Thread nD τ).loc main_v3) ↦{fullShare} Fv 3) ∗ (((c : Thread nD τ).loc main_v4) ↦{fullShare} Fv 4)) := by
  unfold Dat.arrays
  rw [bigSep_W0]
  rw [(arr_whole0 0).set_eq_univ, (arr_whole0 2).set_eq_univ, (arr_whole0 3).set_eq_univ, (arr_whole0 4).set_eq_univ]
  rfl

/-! ## The buffers after the region and at the end -/

/-- After the region: the result array at what the write-backs left, every other buffer as at the entry. -/
def Vexit (c : Dev nD) : Valuation τ sig (Elt F) :=
  Function.update (Ventry m c) (Proc.devRef .tc main_v4) ((dats m 0 c).arrAt 4 cfg0.N)
/-- At the end: the five operations on the result have run. -/
def Vfin (c : Dev nD) : Valuation τ sig (Elt F) := StableHlo.after hostOps1 (Vexit m c)

theorem Vexit_v4 (c : Dev nD) : Vexit m c (Proc.devRef .tc main_v4) = (dats m 0 c).arrAt 4 cfg0.N := by
  unfold Vexit; exact Function.update_self _ _ _

theorem Vexit_ne (c : Dev nD) (b : Ref sig .tc) (hb : b ≠ main_v4) : Vexit m c (Proc.devRef .tc b) = Ventry m c (Proc.devRef .tc b) := by
  unfold Vexit; exact Function.update_of_ne (StableHlo.devRef_ne_of_ne hb) _ _

/-- An input window's array ends as it began. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg0 := ((dats m 0 c).arrAt_in 1 rfl n).trans (A_eq m c 1)
theorem arrAt_in2 (c : Dev nD) (n : ℕ) : (dats m 0 c).arrAt 2 n = V m c main_v1 := ((dats m 0 c).arrAt_in 2 rfl n).trans (A_eq m c 2)
theorem arrAt_in3 (c : Dev nD) (n : ℕ) : (dats m 0 c).arrAt 3 n = V m c main_v3 := ((dats m 0 c).arrAt_in 3 rfl n).trans (A_eq m c 3)
theorem arrAt_out0 (c : Dev nD) : (dats m 0 c).arrAt 4 0 = V m c main_v4 := A_eq m c 4

/-- ENTRY, the arrays: the four buffers behind them, whole, are the pipeline's arrays at the entry contents — `x` split
    in its two halves. -/
theorem entry_arrays (c : Dev nD) :
    iprop((((c : Thread nD τ).loc main_arg0) ↦{fullShare} V m c main_arg0) ∗ (((c : Thread nD τ).loc main_v1) ↦{fullShare} V m c main_v1)
        ∗ (((c : Thread nD τ).loc main_v3) ↦{fullShare} V m c main_v3) ∗ (((c : Thread nD τ).loc main_v4) ↦{fullShare} V m c main_v4))
      ⊢ ((dats m 0 c).arrays ((dats m 0 c).arrAt · 0) : sProp 𝕄) := by
  rw [arrays_list]
  simp only [arrAt_in0, arrAt_in1, arrAt_in2, arrAt_in3, arrAt_out0]
  iintro ⟨Hx, H1, H3, H4⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [H1]; · iexact H1
  isplitl [H3]; · iexact H3
  iexact H4

/-- EXIT, the arrays: the halves of `x` joined, the label columns as they were, the result at what the write-backs left. -/
theorem exit_arrays (c : Dev nD) :
    ((dats m 0 c).arrays ((dats m 0 c).arrAt · cfg0.N) : sProp 𝕄)
      ⊢ iprop((((c : Thread nD τ).loc main_arg0) ↦{fullShare} Vexit m c (Proc.devRef .tc main_arg0)) ∗ (((c : Thread nD τ).loc main_v1) ↦{fullShare} Vexit m c (Proc.devRef .tc main_v1))
        ∗ (((c : Thread nD τ).loc main_v3) ↦{fullShare} Vexit m c (Proc.devRef .tc main_v3)) ∗ (((c : Thread nD τ).loc main_v4) ↦{fullShare} Vexit m c (Proc.devRef .tc main_v4))) := by
  rw [arrays_list, Vexit_v4, Vexit_ne m c main_arg0 (by decide), Vexit_ne m c main_v1 (by decide), Vexit_ne m c main_v3 (by decide)]
  simp only [arrAt_in0, arrAt_in1, arrAt_in2, arrAt_in3]
  iintro ⟨Hxl, Hxr, H1, H3, H4⟩
  isplitl [Hxl Hxr]
  · iapply (pointsTo_share (PosShare.mem_left_op_right fullShare)).2
    isplitl [Hxl] <;> iassumption
  isplitl [H1]; · iexact H1
  isplitl [H3]; · iexact H3
  iexact H4

/-! ## What the host operations leave alone -/

/-- The operations before the region write the four label buffers only. -/
theorem not_written0 (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- The operations after the region write the five buffers of the final arithmetic only. -/
theorem not_written1 (b : Ref sig .tc) (hb : b ≠ main_cst ∧ b ≠ main_v5 ∧ b ≠ main_cst_0 ∧ b ≠ main_v6 ∧ b ≠ main_v7) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.nullary_writes, StableHlo.binary_writes, StableHlo.reshape_writes, Finset.mem_singleton] <;>
    exact StableHlo.devRef_ne_of_ne ‹_›

/-- An argument reaches the end as launched: no host operation writes it, and the region returns it as it found it. -/
theorem Vfin_arg0 (c : Dev nD) : Vfin m c (Proc.devRef .tc main_arg0) = m ((c : Thread nD τ).loc main_arg0) := by
  unfold Vfin
  rw [StableHlo.after_of_forall_not_mem (b := Proc.devRef .tc main_arg0) hostOps1 _ (not_written1 main_arg0 (by decide)),
    Vexit_ne m c main_arg0 (by decide)]
  exact StableHlo.after_of_forall_not_mem (b := Proc.devRef .tc main_arg0) hostOps0 (Vlaunch m c) (not_written0 main_arg0 (by decide))

theorem Vfin_arg1 (c : Dev nD) : Vfin m c (Proc.devRef .tc main_arg1) = m ((c : Thread nD τ).loc main_arg1) := by
  unfold Vfin
  rw [StableHlo.after_of_forall_not_mem (b := Proc.devRef .tc main_arg1) hostOps1 _ (not_written1 main_arg1 (by decide)),
    Vexit_ne m c main_arg1 (by decide)]
  exact StableHlo.after_of_forall_not_mem (b := Proc.devRef .tc main_arg1) hostOps0 (Vlaunch m c) (not_written0 main_arg1 (by decide))

/-! ## The segments -/

/-- The four operations on the labels, over the unscoped buffers. -/
def seg0 : Pipeline.HostSeg (Name := ℕ) (U := UR sig nD τ) (pcfgs (F := F)) defs₀ 𝒱₀ Lp lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vlaunch m) R

/-- The five operations on the kernel's result. -/
def seg1 : Pipeline.HostSeg (Name := ℕ) (U := UR sig nD τ) (pcfgs (F := F)) defs₀ 𝒱₀ Lp lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vexit m) R

/-- The eight buffers that bypass the region, at the entry contents. -/
abbrev Zc (c : Dev nD) : sProp 𝕄 := iprop((((c : Thread nD τ).loc main_arg1) ↦{fullShare} Ventry m c (Proc.devRef .tc main_arg1)) ∗ (((c : Thread nD τ).loc main_v0) ↦{fullShare} Ventry m c (Proc.devRef .tc main_v0)) ∗ (((c : Thread nD τ).loc main_v2) ↦{fullShare} Ventry m c (Proc.devRef .tc main_v2)) ∗ (((c : Thread nD τ).loc main_cst) ↦{fullShare} Ventry m c (Proc.devRef .tc main_cst)) ∗ (((c : Thread nD τ).loc main_v5) ↦{fullShare} Ventry m c (Proc.devRef .tc main_v5)) ∗ (((c : Thread nD τ).loc main_cst_0) ↦{fullShare} Ventry m c (Proc.devRef .tc main_cst_0)) ∗ (((c : Thread nD τ).loc main_v6) ↦{fullShare} Ventry m c (Proc.devRef .tc main_v6)) ∗ (((c : Thread nD τ).loc main_v7) ↦{fullShare} Ventry m c (Proc.devRef .tc main_v7)))

set_option backward.isDefEq.respectTransparency.types false in
/-- The kernel region. -/
def reg0 : Pipeline.RegionSeg (pcfgs (F := F)) adm (dats m) () defs₀ 𝒱₀ Lp lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lp lv 0 fun _ _ => rfl
  pre c := iprop(StableHlo.held (c : Thread nD τ) (Pipeline.ucRefs τ sig) (Ventry m c) ∗ R c)
  post c := iprop(StableHlo.held (c : Thread nD τ) (Pipeline.ucRefs τ sig) (Vexit m c) ∗ R c)
  X _ := iprop(emp)
  Y _ := iprop(emp)
  Z c := Zc m c
  hentry c := by
    rw [held_list, Pipeline.ownSems0_none]
    iintro ⟨⟨⟨Ha, HZ⟩, HO⟩, -, -⟩
    ihave Harr := (entry_arrays m c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = iprop(∃ d, owns (c : Thread nD τ) scM fullShare d) from rfl, scopedRest_scratch]
    iintro ⟨-, -, Hr⟩
    iexact Hr
  hout c := by
    rw [Pipeline.ownSems0_none, scopedRest_scratch,
      show (dats m 0 c).Φ (Fin.last cfg0.N) = owns (c : Thread nD τ) scM fullShare (tot m c 15) from rfl]
    iintro H
    isplitr; · iempintro
    isplitr; · iempintro
    iexists _; iexact H
  hexit c := by
    rw [held_list]
    iintro ⟨Ha, HO, -, HZ⟩
    ihave Harr := (exit_arrays m c) $$ Ha
    imodintro
    isplitr [HO]
    · isplitl [Harr]; · iexact Harr
      simp only [Vexit_ne m c main_arg1 (by decide), Vexit_ne m c main_v0 (by decide), Vexit_ne m c main_v2 (by decide), Vexit_ne m c main_cst (by decide),
        Vexit_ne m c main_v5 (by decide), Vexit_ne m c main_cst_0 (by decide), Vexit_ne m c main_v6 (by decide), Vexit_ne m c main_v7 (by decide)]
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ Lp lv) := [.host (seg0 m), .region (reg0 m), .host (seg1 m)]

/-- The launch element: the pipeline library's, at the staging cells. -/
def u₀ : UR sig nD τ := initOf (Pipeline.cells cfgs cellOf_inj) (Pipeline.launchToks cfgs cellOf_inj)

/-! ## The run -/

set_option backward.isDefEq.respectTransparency.types false in
/-- At the compiled mesh, for any float values, from any memory with zero counters: every weakly fair execution of
    @main on the TensorCores terminates, and every final state has the result at what the operations after the region
    compute from the kernel's two cells, and both arguments unchanged. -/
theorem run_main : θ_run defs (onTc (τ := τ) (main (F := F))) ⟨m, fun _ => 0, ρ⟩ (fun r => ∀ c : Dev nD,
      r.2.mem ((c : Thread nD τ).loc main_v7) = Vfin m c (Proc.devRef .tc main_v7)
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit (pcfgs (F := F)) adm (dats m) () cellOf_inj EP defs₀ 𝒱₀ Lp lv m ρ main (segs m)
    (fun c Q => by rw [main_segs adm (dats m) () 𝒱₀ Lp lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vlaunch m c) ∗ R c))
    (Tₙ := fun c => StableHlo.held (c : Thread nD τ) (Pipeline.ucRefs τ sig) (Vfin m c))
    (hch := ⟨fun _ => .rfl, fun _ => .rfl, fun _ => .rfl, fun _ => .rfl⟩)
    (hinit := by
      refine Pipeline.initEach Lp lv fun c => ?_
      rw [show unscopedBufs c (fun b => m ((c : Thread nD τ).loc b)) = StableHlo.held (c : Thread nD τ) (Pipeline.ucRefs τ sig) (Vlaunch m c) from Pipeline.unscopedBufs_held c (Vlaunch m c)]
      iintro ⟨⟨Hh, -, HO, -, -, -⟩, -⟩
      imodintro
      isplitl [Hh]; · iexact Hh
      iexists ∅; iexact HO)
    (QY := fun c s => s.mem ((c : Thread nD τ).loc main_v7) = Vfin m c (Proc.devRef .tc main_v7)
      ∧ s.mem ((c : Thread nD τ).loc main_arg0) = m ((c : Thread nD τ).loc main_arg0)
      ∧ s.mem ((c : Thread nD τ).loc main_arg1) = m ((c : Thread nD τ).loc main_arg1))
    (hfin := fun c s' => by
      rw [held_list, Vfin_arg0, Vfin_arg1]
      iintro ⟨⟨⟨Hx, -, -, -⟩, ⟨H1, -, -, -, -, -, -, H7⟩⟩, HSI⟩
      icombine HSI Hx gives %hx
      icombine HSI H1 gives %h1
      icombine HSI H7 gives %h7
      imodintro
      isplitr; · ipureintro; exact ⟨Buf.eq_of_forall_mem_univ h7, Buf.eq_of_forall_mem_univ hx, Buf.eq_of_forall_mem_univ h1⟩
      iexact HSI)
    (hQ := fun _ h => h)

end Cert.Kernel.Hand

end
-- ==== Proof.Setup.lean ====
/-
  The kernel region's surroundings, shared by everything that follows.

  @main first slices the label vector into its two halves and reshapes each to a column (four host operations), then
  runs the kernel over a 2 × 8 grid, then sums the kernel's two output cells, divides and reshapes (five host
  operations). Here: the buffer contents when the region is entered (`Ventry`), the block of each window's array at a
  grid point (`iblk`), the body's two branch conditions in closed form over the 16 grid points — "first block of a
  cell" at the points ≡ 0 (mod 8), "last block of a cell" at the points ≡ 7 (mod 8) —, where the output window is
  idle (everywhere but the last blocks), and names for the staging and scratch memrefs the body is called with.
-/
import proofs.«162703_j70763881169378_2_alg».proof.Proof.Gen.KernelIdeal.Launch
import proofs.«162703_j70763881169378_2_alg».proof.Proof.Gen.KernelIdeal.Skeleton
import proofs.«162703_j70763881169378_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers around the region -/

/-- Core `c`'s TensorCore buffers at launch, as a valuation. -/
abbrev Vlaunch (c : Dev nD) : Valuation τ sig (Elt F) := fun b => m (c, b)
/-- When the region is entered: the four operations on the labels have run. -/
abbrev Ventry (c : Dev nD) : Valuation τ sig (Elt F) := StableHlo.after hostOps0 (Vlaunch m c)
/-- The same read at a TensorCore reference. -/
abbrev V (c : Dev nD) (b : Ref sig .tc) : Buf (Elt F) ((c : Thread nD τ).loc b) := Ventry m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Grid position `n` as a point (positions past the grid wrap around; only `n < 16` is ever used). -/
def pt (n : ℕ) : Fin cfg0.N := ⟨n % cfg0.N, Nat.mod_lt _ (by rw [show cfg0.N = 16 from N_0]; decide)⟩

theorem pt_val (t : Fin cfg0.N) : pt t.val = t := Fin.ext (Nat.mod_eq_of_lt t.isLt)

/-! ## The body's two conditions -/

/-- "This is the first block of a cell": the running total is reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last block of a cell": the running total is written to the output cell. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last blocks the output cell's buffer is neither stored into nor written back. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-! ## The memrefs the body is called with -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
/-- The running total's scratch buffer. -/
abbrev scM : Memref sig .tc .vmem S1x1x1 .f32 := Memref.whole cc0_scratch0

/-- The scoped buffers no window stages are the scratch alone, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.BodyRuns.lean ====
/-
  The kernel body, run once per kind of grid point.

  The body always loads its four input blocks and the running total, adds the block's sum of per-pair losses to the
  total and stores it back (the payload `k0_pay2`). At the FIRST block of a cell it first resets the total to zero
  (`k0_pay1`), so the update is applied to the reset value whatever the scratch held; at the LAST block of a cell it then
  copies the new total into the output cell's buffer. Each theorem: from the six buffers owned whole, the body runs to
  its return with the inputs as they were, the scratch at the new total, and the output buffer untouched (first and
  middle blocks) or at the new total (last block).
-/
import proofs.«162703_j70763881169378_2_alg».proof.Proof.Setup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem z3 : (![0, 0, 0] : Fin 3 → ℕ) = fun _ => 0 := by funext a; fin_cases a <;> rfl
theorem z2 : (![0, 0] : Fin 2 → ℕ) = fun _ => 0 := by funext a; fin_cases a <;> rfl

/-- A MIDDLE block: the total so far is updated in place. -/
theorem runMid (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S1x1x1 .f32) (h6 : a6.IsWhole) (a7 : Memref sig .tc .vmem S1x1x1 .f32) (h7 : a7.IsWhole) (hc0 : ¬condFirst i) (hc1 : ¬condLast i)
    (x0 x1 : Vec F S2048x512 .f32) (l0 l1 : Vec F S2048x1 .i32) (xo xs : Vec F S1x1x1 .f32) (E : Set ℕ) (K : PUnit → sProp 𝕄) :
    iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare (k0_pay2 x0 x1 l0 l1 xs)) -∗ K ⟨⟩))
      ⊢ wp frame (wpE (defs₀ (F := F)) Variants.none c none) E (cc0__siamese_kernel i a2 h2 a3 h3 a4 h4 a5 h5 a6 h6 a7 h7) K := by
  simp only [cc0__siamese_kernel_eq_skeleton]; unfold cc0__siamese_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  iexists _; isplitr; swap; · iexact HS
  ipureintro
  rw [View.read_writes_eq_canon _ _ _ (fun y => View.cover_of_tiledL _ S1x1x1.size (by sl_kernel_rfl) y)]
  rw [View.canon_unit_zero z3]
  simp only [View.readAt_eq_ld, h2.read_unread, h3.read_unread, h4.read_unread, h5.read_unread, h7.read_unread,
    View.ld_unit_zero (S := S2048x512) z2, View.ld_unit_zero (S := S2048x1) z2, View.ld_unit_zero (S := S1x1x1) z3]
  try rfl

/-- The FIRST block of a cell: the total is reset, then updated. -/
theorem runFirst (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S1x1x1 .f32) (h6 : a6.IsWhole) (a7 : Memref sig .tc .vmem S1x1x1 .f32) (h7 : a7.IsWhole) (hc0 : condFirst i) (hc1 : ¬condLast i)
    (x0 x1 : Vec F S2048x512 .f32) (l0 l1 : Vec F S2048x1 .i32) (xo xs : Vec F S1x1x1 .f32) (E : Set ℕ) (K : PUnit → sProp 𝕄) :
    iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare (k0_pay2 x0 x1 l0 l1 (k0_pay1 (F := F)))) -∗ K ⟨⟩))
      ⊢ wp frame (wpE (defs₀ (F := F)) Variants.none c none) E (cc0__siamese_kernel i a2 h2 a3 h3 a4 h4 a5 h5 a6 h6 a7 h7) K := by
  simp only [cc0__siamese_kernel_eq_skeleton]; unfold cc0__siamese_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  iexists _; isplitr; swap; · iexact HS
  ipureintro
  rw [View.read_writes_eq_canon _ _ _ (fun y => View.cover_of_tiledL _ S1x1x1.size (by sl_kernel_rfl) y)]
  rw [View.canon_cons_unit_zero z3]
  sl_unfold_run_names
  rw [View.readCov_unit_zero _ z3]
  simp only [View.readAt_eq_ld, h2.read_unread, h3.read_unread, h4.read_unread, h5.read_unread, h7.read_unread,
    View.ld_unit_zero (S := S2048x512) z2, View.ld_unit_zero (S := S2048x1) z2, View.ld_unit_zero (S := S1x1x1) z3]

/-- The LAST block of a cell: the total is updated and copied to the output cell. -/
theorem runLast (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .i32) (h4 : a4.IsWhole) (a5 : Memref sig .tc .vmem S2048x1 .i32) (h5 : a5.IsWhole) (a6 : Memref sig .tc .vmem S1x1x1 .f32) (h6 : a6.IsWhole) (a7 : Memref sig .tc .vmem S1x1x1 .f32) (h7 : a7.IsWhole) (hc0 : ¬condFirst i) (hc1 : condLast i)
    (x0 x1 : Vec F S2048x512 .f32) (l0 l1 : Vec F S2048x1 .i32) (xo xs : Vec F S1x1x1 .f32) (E : Set ℕ) (K : PUnit → sProp 𝕄) :
    iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare l0 ∗ owns (c : Thread nD τ) a5 fullShare l1 ∗ owns (c : Thread nD τ) a6 fullShare (k0_pay2 x0 x1 l0 l1 xs) ∗ owns (c : Thread nD τ) a7 fullShare (k0_pay2 x0 x1 l0 l1 xs)) -∗ K ⟨⟩))
      ⊢ wp frame (wpE (defs₀ (F := F)) Variants.none c none) E (cc0__siamese_kernel i a2 h2 a3 h3 a4 h4 a5 h5 a6 h6 a7 h7) K := by
  simp only [cc0__siamese_kernel_eq_skeleton]; unfold cc0__siamese_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2; obtain rfl := h5.eq_unread hf3
  obtain rfl := h6.eq_unread hf4; obtain rfl := h7.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; swap; · iexact H4
    ipureintro
    rw [View.read_writes_eq_canon _ _ _ (fun y => View.cover_of_tiledL _ S1x1x1.size (by sl_kernel_rfl) y)]
    rw [View.canon_unit_zero z3]
    sl_unfold_run_names
    rw [View.readCov_unit_zero _ z3]
    simp only [View.readAt_eq_ld, h2.read_unread, h3.read_unread, h4.read_unread, h5.read_unread, h7.read_unread,
    View.ld_unit_zero (S := S2048x512) z2, View.ld_unit_zero (S := S2048x1) z2, View.ld_unit_zero (S := S1x1x1) z3]
  iexists _; isplitr; swap; · iexact HS
  ipureintro
  sl_unfold_run_names
  rw [View.read_writes_eq_canon _ _ _ (fun y => View.cover_of_tiledL _ S1x1x1.size (by sl_kernel_rfl) y)]
  rw [View.canon_unit_zero z3]
  simp only [View.readAt_eq_ld, h2.read_unread, h3.read_unread, h4.read_unread, h5.read_unread, h7.read_unread,
    View.ld_unit_zero (S := S2048x512) z2, View.ld_unit_zero (S := S2048x1) z2, View.ld_unit_zero (S := S1x1x1) z3]

end Cert.KernelIdeal.Hand

end
-- ==== Proof.Spec.lean ====
/-
  The pairwise contrastive loss, as the kernel computes it, stated over plain arrays.

  The input x : f32[65536, 512] is read as 32768 PAIRS of rows: pair r is (row r, row 32768 + r), with labels
  (label r, label 32768 + r). The kernel walks the pairs in 16 consecutive blocks of 2048 pairs, eight blocks for
  each of its two output cells, and keeps one running total: at the first block of a cell the total is reset to
  zero, at every block the block's sum of per-pair losses is added to it, and after the last block of a cell the
  total is that cell's result. The two cells are then summed, divided by 131072 and reshaped to f32[1].

  Here that is written down once, for any float instance: the blocks as index functions of the argument arrays
  (`rowsLo`, `rowsHi`, `labLo`, `labHi`), the running total after each block as a recursion over the body's two
  payloads (`totalAfter`: the reset value and the block's update), the two cells (`cells`) and the arithmetic after
  the kernel (`finish`).
-/
import proofs.«162703_j70763881169378_2_alg».proof.Proof.Gen.KernelIdeal.Skeleton
import Idealize.ShloMosaic.Lib.ValueIdx

noncomputable section

namespace Cert.KernelIdeal.Pairs

open Idealize.ShloMosaic Idealize.ShloMosaic.ValueIdx Cert.KernelIdeal Cert.KernelIdeal.Gen

variable {F : FTy → Type} [FloatOps F]

/-- Block `b` (2048 rows) of the FIRST members of the pairs: rows 2048 b … 2048 b + 2047 of `x`. -/
def rowsLo (x : Vec F S65536x512 .f32) (b : ℕ) : Vec F S2048x512 .f32 := fun y =>
  x (ix2 (⟨(2048 * b + (y 0).val) % 65536, Nat.mod_lt _ (by decide)⟩ : Fin 65536) (⟨(y 1).val, (y 1).isLt⟩ : Fin 512))

/-- Block `b` of the SECOND members: rows 32768 + 2048 b … of `x`. -/
def rowsHi (x : Vec F S65536x512 .f32) (b : ℕ) : Vec F S2048x512 .f32 := fun y =>
  x (ix2 (⟨(32768 + 2048 * b + (y 0).val) % 65536, Nat.mod_lt _ (by decide)⟩ : Fin 65536) (⟨(y 1).val, (y 1).isLt⟩ : Fin 512))

/-- Block `b` of the first members' labels, as a column. -/
def labLo (l : Vec F S65536 .i32) (b : ℕ) : Vec F S2048x1 .i32 := fun y =>
  l (ix1 (⟨(2048 * b + (y 0).val) % 65536, Nat.mod_lt _ (by decide)⟩ : Fin 65536))

/-- Block `b` of the second members' labels, as a column. -/
def labHi (l : Vec F S65536 .i32) (b : ℕ) : Vec F S2048x1 .i32 := fun y =>
  l (ix1 (⟨(32768 + 2048 * b + (y 0).val) % 65536, Nat.mod_lt _ (by decide)⟩ : Fin 65536))

/-- The running total after block `n`: the block's update (`k0_pay2`: the total so far plus the block's sum of
    per-pair losses) applied to the reset value (`k0_pay1`: zero) at the first block of a cell (`n` a multiple of 8)
    and to the total after block `n - 1` otherwise. -/
def totalAfter (X1 X2 : ℕ → Vec F S2048x512 .f32) (L1 L2 : ℕ → Vec F S2048x1 .i32) : ℕ → Vec F S1x1x1 .f32
  | 0 => k0_pay2 (X1 0) (X2 0) (L1 0) (L2 0) (k0_pay1 (F := F))
  | n + 1 => k0_pay2 (X1 (n + 1)) (X2 (n + 1)) (L1 (n + 1)) (L2 (n + 1))
      (if (n + 1) % 8 = 0 then k0_pay1 (F := F) else totalAfter X1 X2 L1 L2 n)

theorem totalAfter_zero (X1 X2 : ℕ → Vec F S2048x512 .f32) (L1 L2 : ℕ → Vec F S2048x1 .i32) :
    totalAfter X1 X2 L1 L2 0 = k0_pay2 (X1 0) (X2 0) (L1 0) (L2 0) (k0_pay1 (F := F)) := rfl

theorem totalAfter_succ (X1 X2 : ℕ → Vec F S2048x512 .f32) (L1 L2 : ℕ → Vec F S2048x1 .i32) (n : ℕ) :
    totalAfter X1 X2 L1 L2 (n + 1) = k0_pay2 (X1 (n + 1)) (X2 (n + 1)) (L1 (n + 1)) (L2 (n + 1))
      (if (n + 1) % 8 = 0 then k0_pay1 (F := F) else totalAfter X1 X2 L1 L2 n) := rfl

/-- The two output cells: cell `p` is the running total after the last (eighth) block of its group. -/
def cells (x : Vec F S65536x512 .f32) (l : Vec F S65536 .i32) : Vec F S2x1x1 .f32 := fun j =>
  totalAfter (rowsLo x) (rowsHi x) (labLo l) (labHi l) (8 * (j 0).val + 7) (ix3 (0 : Fin 1) (0 : Fin 1) (0 : Fin 1))

/-- The arithmetic after the kernel: the cells summed from zero, divided by 131072, as a one-element vector. -/
def finish (v : Vec F S2x1x1 .f32) : Vec F S1 .f32 :=
  shapeCast S1 (Host.divf (F := F) (Host.reduceAdd (F := F) v (constant (F := F) S_ .f32 0x00000000#32) reducesTo_S2x1x1_S_d0_1_2 h_S_)
    (constant (F := F) S_ .f32 0x48000000#32)) shapeCasts_S_S1

end Cert.KernelIdeal.Pairs

end
-- ==== Proof.Data.lean ====
/-
  The proof data of the kernel region, and the body obligation.

  At grid position `n` (the 16 points in order) the body works on block `n` of each of its four inputs. What the
  scratch holds after position `n` is `tot n`: the running total of the per-pair losses of the blocks of the current
  cell up to and including block `n` (`Pairs.totalAfter` over the windows' blocks). The region's invariant before
  position `n` is the scratch at `tot (n - 1)` (at anything before the first position); each input's buffer is left
  as fetched; the output cell's buffer is left untouched except at the last block of a cell, where it is left at
  `tot n` and written back. The two windows on `x` each hold half of its share.
-/
import proofs.«162703_j70763881169378_2_alg».proof.Proof.BodyRuns
import proofs.«162703_j70763881169378_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the running total, by grid position -/

def X1 (c : Dev nD) (n : ℕ) : Vec F S2048x512 .f32 := iblk m c 0 (pt n)
def X2 (c : Dev nD) (n : ℕ) : Vec F S2048x512 .f32 := iblk m c 1 (pt n)
def L1 (c : Dev nD) (n : ℕ) : Vec F S2048x1 .i32 := iblk m c 2 (pt n)
def L2 (c : Dev nD) (n : ℕ) : Vec F S2048x1 .i32 := iblk m c 3 (pt n)

/-- What the scratch holds after position `n`. -/
def tot (c : Dev nD) (n : ℕ) : Vec F S1x1x1 .f32 := Pairs.totalAfter (X1 m c) (X2 m c) (L1 m c) (L2 m c) n

/-- The running total after a point: the block's update of the reset value at the first block of a cell, of the
    total after the point before otherwise. -/
theorem tot_eq (c : Dev nD) (t : Fin cfg0.N) :
    tot m c t.val = k0_pay2 (iblk m c 0 t) (iblk m c 1 t) (iblk m c 2 t) (iblk m c 3 t)
      (if t.val % 8 = 0 then k0_pay1 (F := F) else tot m c (t.val - 1)) := by
  obtain ⟨n, hn⟩ := t
  have e : pt n = ⟨n, hn⟩ := pt_val ⟨n, hn⟩
  cases n with
  | zero =>
    unfold tot; rw [Pairs.totalAfter_zero]; unfold X1 X2 L1 L2; rw [e]; rfl
  | succ k =>
    unfold tot; rw [Pairs.totalAfter_succ]; unfold X1 X2 L1 L2; rw [e]; rfl

/-! ## The invariant and the proof data -/

/-- Before position `n`: the scratch at anything before the first, at the total after position `n - 1` afterwards. -/
def PhiS (c : Dev nD) : ℕ → sProp 𝕄
  | 0 => iprop(∃ d, owns (c : Thread nD τ) scM fullShare d)
  | n + 1 => owns (c : Thread nD τ) scM fullShare (tot m c n)

theorem PhiS_pos (c : Dev nD) (n : ℕ) (hz : n ≠ 0) : PhiS m c n = owns (c : Thread nD τ) scM fullShare (tot m c (n - 1)) := by
  cases n with
  | zero => exact absurd rfl hz
  | succ k => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tot m c t.val
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tot m c t.val := by dsimp only [dats]

/-- Every input is fetched at every point: its buffer holds its block when the body runs. -/
theorem before_0 (c : Dev nD) (t : Fin cfg0.N) (d) : (dats m 0 c).before 0 t d = iblk m c 0 t := by
  unfold Dat.before; rw [if_pos (fetch0_0 t)]; unfold Dat.fetched Dat.blockOf iblk; rw [A_eq]; try rfl
theorem before_1 (c : Dev nD) (t : Fin cfg0.N) (d) : (dats m 0 c).before 1 t d = iblk m c 1 t := by
  unfold Dat.before; rw [if_pos (fetch0_1 t)]; unfold Dat.fetched Dat.blockOf iblk; rw [A_eq]; try rfl
theorem before_2 (c : Dev nD) (t : Fin cfg0.N) (d) : (dats m 0 c).before 2 t d = iblk m c 2 t := by
  unfold Dat.before; rw [if_pos (fetch0_2 t)]; unfold Dat.fetched Dat.blockOf iblk; rw [A_eq]; try rfl
theorem before_3 (c : Dev nD) (t : Fin cfg0.N) (d) : (dats m 0 c).before 3 t d = iblk m c 3 t := by
  unfold Dat.before; rw [if_pos (fetch0_3 t)]; unfold Dat.fetched Dat.blockOf iblk; rw [A_eq]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = owns (c : Thread nD τ) scM fullShare (tot m c t.val) from rfl]
  rw [show (dats m 0 c).Φ t.castSucc = PhiS m c t.val from by dsimp only [dats]; simp only [Fin.coe_castSucc]]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [tot_eq m c t]
  by_cases hF : t.val % 8 = 0
  · have hL : ¬ t.val % 8 = 7 := by omega
    have hc0 : condFirst (grid0.coords t) := (hcondFirst t).mpr hF
    have hc1 : ¬condLast (grid0.coords t) := fun h => hL ((hcondLast t).mp h)
    rw [Dat.leavesExact_idle (dats m 0 c) 4 t (idle4 t hc1) (noFlush4 t hc1), if_pos hF]
    have hΦ : PhiS m c t.val ⊢ (iprop(∃ d, owns (c : Thread nD τ) scM fullShare d) : sProp 𝕄) := by
      by_cases hz : t.val = 0
      · rw [hz]; exact Idealize.SL.BI.Entails.refl _
      · rw [PhiS_pos m c _ hz]; iintro H; iexists _; iexact H
    iintro ⟨HΦ, Ho, ⟨%d0, H0⟩, ⟨%d1, H1⟩, ⟨%d2, H2⟩, ⟨%d3, H3⟩, ⟨%d4, H4⟩⟩
    ihave HS := hΦ $$ HΦ
    icases HS with ⟨%xs, HS⟩
    iapply (runFirst c (grid0.coords t) (ms0 t) (hs0 t) (ms1 t) (hs1 t) (ms2 t) (hs2 t) (ms3 t) (hs3 t) (ms4 t) (hs4 t) scM (Memref.isWhole_whole _) hc0 hc1
      (iblk m c 0 t) (iblk m c 1 t) (iblk m c 2 t) (iblk m c 3 t) ((dats m 0 c).before 4 t d4) xs Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexists _; iexact H4
  · have hz : t.val ≠ 0 := fun h => hF (by rw [h])
    have hc0 : ¬condFirst (grid0.coords t) := fun h => hF ((hcondFirst t).mp h)
    rw [PhiS_pos m c _ hz, if_neg hF]
    by_cases hL : t.val % 8 = 7
    · have hc1 : condLast (grid0.coords t) := (hcondLast t).mpr hL
      rw [show (dats m 0 c).leavesExact 4 t = owns (c : Thread nD τ) (ms4 t) fullShare ((dats m 0 c).after 4 t) from by
        unfold Dat.leavesExact; rw [live4 t hc1], after_4, tot_eq m c t, if_neg hF]
      iintro ⟨HS, Ho, ⟨%d0, H0⟩, ⟨%d1, H1⟩, ⟨%d2, H2⟩, ⟨%d3, H3⟩, ⟨%d4, H4⟩⟩
      iapply (runLast c (grid0.coords t) (ms0 t) (hs0 t) (ms1 t) (hs1 t) (ms2 t) (hs2 t) (ms3 t) (hs3 t) (ms4 t) (hs4 t) scM (Memref.isWhole_whole _) hc0 hc1
        (iblk m c 0 t) (iblk m c 1 t) (iblk m c 2 t) (iblk m c 3 t) ((dats m 0 c).before 4 t d4) (tot m c (t.val - 1)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hc1 : ¬condLast (grid0.coords t) := fun h => hL ((hcondLast t).mp h)
      rw [Dat.leavesExact_idle (dats m 0 c) 4 t (idle4 t hc1) (noFlush4 t hc1)]
      iintro ⟨HS, Ho, ⟨%d0, H0⟩, ⟨%d1, H1⟩, ⟨%d2, H2⟩, ⟨%d3, H3⟩, ⟨%d4, H4⟩⟩
      iapply (runMid c (grid0.coords t) (ms0 t) (hs0 t) (ms1 t) (hs1 t) (ms2 t) (hs2 t) (ms3 t) (hs3 t) (ms4 t) (hs4 t) scM (Memref.isWhole_whole _) hc0 hc1
        (iblk m c 0 t) (iblk m c 1 t) (iblk m c 2 t) (iblk m c 3 t) ((dats m 0 c).before 4 t d4) (tot m c (t.val - 1)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Launch.lean ====
/-
  The launch: @main as three segments — the four host operations on the labels, the kernel region, the five host
  operations on the kernel's result — and its run.

  Between segments the core holds its twelve unscoped buffers whole at a valuation. The region is entered by handing
  the pipeline its windows' arrays: the label columns and the result array whole, and `x`, which TWO windows read,
  split in two half shares, one per window; the other eight buffers bypass the region. At the exit the two halves of
  `x` are joined again (an input array ends as it began), the result array is at what the write-backs left, and the
  host operations after the region run from there. The final state is read at the result and at the two arguments.
-/
import proofs.«162703_j70763881169378_2_alg».proof.Proof.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

abbrev Lp : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers: the core owes nothing. -/
abbrev R (c : Dev nD) : sProp 𝕄 := iprop(∃ W, owes (c : Thread nD τ) (0 : CellTallies nD τ sig Unit) W)

/-! ## The unscoped buffers, one by one -/

omit [FloatOps F] in
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v1) ↦{fullShare} W main_v1)
          ∗ (((c : Thread nD τ).loc main_v3) ↦{fullShare} W main_v3) ∗ (((c : Thread nD τ).loc main_v4) ↦{fullShare} W main_v4)) := by
  unfold Pipeline.arrBufs
  rw [bigSep_eq_bigSepL_of_eq [main_arg0, main_v1, main_v3, main_v4] (by decide) (by decide)]
  rfl

omit [FloatOps F] in
/-- The twelve unscoped buffers held at a valuation: the four behind the windows' arrays, then the other eight. -/
theorem held_list (c : Dev nD) (W : Valuation τ sig (Elt F)) :
    (StableHlo.held (c : Thread nD τ) (Pipeline.ucRefs τ sig) W : sProp 𝕄)
      = iprop(((((c : Thread nD τ).loc main_arg0) ↦{fullShare} W (Proc.devRef .tc main_arg0)) ∗ (((c : Thread nD τ).loc main_v1) ↦{fullShare} W (Proc.devRef .tc main_v1))
          ∗ (((c : Thread nD τ).loc main_v3) ↦{fullShare} W (Proc.devRef .tc main_v3)) ∗ (((c : Thread nD τ).loc main_v4) ↦{fullShare} W (Proc.devRef .tc main_v4)))
        ∗ ((((c : Thread nD τ).loc main_arg1) ↦{fullShare} W (Proc.devRef .tc main_arg1)) ∗ (((c : Thread nD τ).loc main_v0) ↦{fullShare} W (Proc.devRef .tc main_v0)) ∗ (((c : Thread nD τ).loc main_v2) ↦{fullShare} W (Proc.devRef .tc main_v2)) ∗ (((c : Thread nD τ).loc main_cst) ↦{fullShare} W (Proc.devRef .tc main_cst)) ∗ (((c : Thread nD τ).loc main_v5) ↦{fullShare} W (Proc.devRef .tc main_v5)) ∗ (((c : Thread nD τ).loc main_cst_0) ↦{fullShare} W (Proc.devRef .tc main_cst_0)) ∗ (((c : Thread nD τ).loc main_v6) ↦{fullShare} W (Proc.devRef .tc main_v6)) ∗ (((c : Thread nD τ).loc main_v7) ↦{fullShare} W (Proc.devRef .tc main_v7)))) := by
  rw [← Pipeline.unscopedBufs_held c W, Pipeline.unscopedBufs_split₀ cfgs (0 : Fin 1) winFacts₀0.arr_unscoped c, arrBufs_list, unscopedRest0_eq]

/-- The windows' arrays as the pipeline holds them: `x` at a half share for each of its two windows, the label columns
    and the result whole. -/
theorem arrays_list (c : Dev nD) (Fv : (w : Fin cfg0.W) → Buf (Elt F) ((cfg0.win w).arr.view.loc (c : Thread nD τ))) :
    (dats m 0 c).arrays Fv = iprop((((c : Thread nD τ).loc main_arg0) ↦{fullShare.left} Fv 0) ∗ (((c : Thread nD τ).loc main_arg0) ↦{fullShare.right} Fv 1)
        ∗ (((c : Thread nD τ).loc main_v1) ↦{fullShare} Fv 2) ∗ (((c : Thread nD τ).loc main_v3) ↦{fullShare} Fv 3) ∗ (((c : Thread nD τ).loc main_v4) ↦{fullShare} Fv 4)) := by
  unfold Dat.arrays
  rw [bigSep_W0]
  rw [(arr_whole0 0).set_eq_univ, (arr_whole0 2).set_eq_univ, (arr_whole0 3).set_eq_univ, (arr_whole0 4).set_eq_univ]
  rfl

/-! ## The buffers after the region and at the end -/

/-- After the region: the result array at what the write-backs left, every other buffer as at the entry. -/
def Vexit (c : Dev nD) : Valuation τ sig (Elt F) :=
  Function.update (Ventry m c) (Proc.devRef .tc main_v4) ((dats m 0 c).arrAt 4 cfg0.N)
/-- At the end: the five operations on the result have run. -/
def Vfin (c : Dev nD) : Valuation τ sig (Elt F) := StableHlo.after hostOps1 (Vexit m c)

theorem Vexit_v4 (c : Dev nD) : Vexit m c (Proc.devRef .tc main_v4) = (dats m 0 c).arrAt 4 cfg0.N := by
  unfold Vexit; exact Function.update_self _ _ _

theorem Vexit_ne (c : Dev nD) (b : Ref sig .tc) (hb : b ≠ main_v4) : Vexit m c (Proc.devRef .tc b) = Ventry m c (Proc.devRef .tc b) := by
  unfold Vexit; exact Function.update_of_ne (StableHlo.devRef_ne_of_ne hb) _ _

/-- An input window's array ends as it began. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg0 := ((dats m 0 c).arrAt_in 1 rfl n).trans (A_eq m c 1)
theorem arrAt_in2 (c : Dev nD) (n : ℕ) : (dats m 0 c).arrAt 2 n = V m c main_v1 := ((dats m 0 c).arrAt_in 2 rfl n).trans (A_eq m c 2)
theorem arrAt_in3 (c : Dev nD) (n : ℕ) : (dats m 0 c).arrAt 3 n = V m c main_v3 := ((dats m 0 c).arrAt_in 3 rfl n).trans (A_eq m c 3)
theorem arrAt_out0 (c : Dev nD) : (dats m 0 c).arrAt 4 0 = V m c main_v4 := A_eq m c 4

/-- ENTRY, the arrays: the four buffers behind them, whole, are the pipeline's arrays at the entry contents — `x` split
    in its two halves. -/
theorem entry_arrays (c : Dev nD) :
    iprop((((c : Thread nD τ).loc main_arg0) ↦{fullShare} V m c main_arg0) ∗ (((c : Thread nD τ).loc main_v1) ↦{fullShare} V m c main_v1)
        ∗ (((c : Thread nD τ).loc main_v3) ↦{fullShare} V m c main_v3) ∗ (((c : Thread nD τ).loc main_v4) ↦{fullShare} V m c main_v4))
      ⊢ ((dats m 0 c).arrays ((dats m 0 c).arrAt · 0) : sProp 𝕄) := by
  rw [arrays_list]
  simp only [arrAt_in0, arrAt_in1, arrAt_in2, arrAt_in3, arrAt_out0]
  iintro ⟨Hx, H1, H3, H4⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [H1]; · iexact H1
  isplitl [H3]; · iexact H3
  iexact H4

/-- EXIT, the arrays: the halves of `x` joined, the label columns as they were, the result at what the write-backs left. -/
theorem exit_arrays (c : Dev nD) :
    ((dats m 0 c).arrays ((dats m 0 c).arrAt · cfg0.N) : sProp 𝕄)
      ⊢ iprop((((c : Thread nD τ).loc main_arg0) ↦{fullShare} Vexit m c (Proc.devRef .tc main_arg0)) ∗ (((c : Thread nD τ).loc main_v1) ↦{fullShare} Vexit m c (Proc.devRef .tc main_v1))
        ∗ (((c : Thread nD τ).loc main_v3) ↦{fullShare} Vexit m c (Proc.devRef .tc main_v3)) ∗ (((c : Thread nD τ).loc main_v4) ↦{fullShare} Vexit m c (Proc.devRef .tc main_v4))) := by
  rw [arrays_list, Vexit_v4, Vexit_ne m c main_arg0 (by decide), Vexit_ne m c main_v1 (by decide), Vexit_ne m c main_v3 (by decide)]
  simp only [arrAt_in0, arrAt_in1, arrAt_in2, arrAt_in3]
  iintro ⟨Hxl, Hxr, H1, H3, H4⟩
  isplitl [Hxl Hxr]
  · iapply (pointsTo_share (PosShare.mem_left_op_right fullShare)).2
    isplitl [Hxl] <;> iassumption
  isplitl [H1]; · iexact H1
  isplitl [H3]; · iexact H3
  iexact H4

/-! ## What the host operations leave alone -/

/-- The operations before the region write the four label buffers only. -/
theorem not_written0 (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- The operations after the region write the five buffers of the final arithmetic only. -/
theorem not_written1 (b : Ref sig .tc) (hb : b ≠ main_cst ∧ b ≠ main_v5 ∧ b ≠ main_cst_0 ∧ b ≠ main_v6 ∧ b ≠ main_v7) :
    ∀ op ∈ (hostOps1 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.nullary_writes, StableHlo.binary_writes, StableHlo.reshape_writes, Finset.mem_singleton] <;>
    exact StableHlo.devRef_ne_of_ne ‹_›

/-- An argument reaches the end as launched: no host operation writes it, and the region returns it as it found it. -/
theorem Vfin_arg0 (c : Dev nD) : Vfin m c (Proc.devRef .tc main_arg0) = m ((c : Thread nD τ).loc main_arg0) := by
  unfold Vfin
  rw [StableHlo.after_of_forall_not_mem (b := Proc.devRef .tc main_arg0) hostOps1 _ (not_written1 main_arg0 (by decide)),
    Vexit_ne m c main_arg0 (by decide)]
  exact StableHlo.after_of_forall_not_mem (b := Proc.devRef .tc main_arg0) hostOps0 (Vlaunch m c) (not_written0 main_arg0 (by decide))

theorem Vfin_arg1 (c : Dev nD) : Vfin m c (Proc.devRef .tc main_arg1) = m ((c : Thread nD τ).loc main_arg1) := by
  unfold Vfin
  rw [StableHlo.after_of_forall_not_mem (b := Proc.devRef .tc main_arg1) hostOps1 _ (not_written1 main_arg1 (by decide)),
    Vexit_ne m c main_arg1 (by decide)]
  exact StableHlo.after_of_forall_not_mem (b := Proc.devRef .tc main_arg1) hostOps0 (Vlaunch m c) (not_written0 main_arg1 (by decide))

/-! ## The segments -/

/-- The four operations on the labels, over the unscoped buffers. -/
def seg0 : Pipeline.HostSeg (Name := ℕ) (U := UR sig nD τ) (pcfgs (F := F)) defs₀ 𝒱₀ Lp lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vlaunch m) R

/-- The five operations on the kernel's result. -/
def seg1 : Pipeline.HostSeg (Name := ℕ) (U := UR sig nD τ) (pcfgs (F := F)) defs₀ 𝒱₀ Lp lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vexit m) R

/-- The eight buffers that bypass the region, at the entry contents. -/
abbrev Zc (c : Dev nD) : sProp 𝕄 := iprop((((c : Thread nD τ).loc main_arg1) ↦{fullShare} Ventry m c (Proc.devRef .tc main_arg1)) ∗ (((c : Thread nD τ).loc main_v0) ↦{fullShare} Ventry m c (Proc.devRef .tc main_v0)) ∗ (((c : Thread nD τ).loc main_v2) ↦{fullShare} Ventry m c (Proc.devRef .tc main_v2)) ∗ (((c : Thread nD τ).loc main_cst) ↦{fullShare} Ventry m c (Proc.devRef .tc main_cst)) ∗ (((c : Thread nD τ).loc main_v5) ↦{fullShare} Ventry m c (Proc.devRef .tc main_v5)) ∗ (((c : Thread nD τ).loc main_cst_0) ↦{fullShare} Ventry m c (Proc.devRef .tc main_cst_0)) ∗ (((c : Thread nD τ).loc main_v6) ↦{fullShare} Ventry m c (Proc.devRef .tc main_v6)) ∗ (((c : Thread nD τ).loc main_v7) ↦{fullShare} Ventry m c (Proc.devRef .tc main_v7)))

set_option backward.isDefEq.respectTransparency.types false in
/-- The kernel region. -/
def reg0 : Pipeline.RegionSeg (pcfgs (F := F)) adm (dats m) () defs₀ 𝒱₀ Lp lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lp lv 0 fun _ _ => rfl
  pre c := iprop(StableHlo.held (c : Thread nD τ) (Pipeline.ucRefs τ sig) (Ventry m c) ∗ R c)
  post c := iprop(StableHlo.held (c : Thread nD τ) (Pipeline.ucRefs τ sig) (Vexit m c) ∗ R c)
  X _ := iprop(emp)
  Y _ := iprop(emp)
  Z c := Zc m c
  hentry c := by
    rw [held_list, Pipeline.ownSems0_none]
    iintro ⟨⟨⟨Ha, HZ⟩, HO⟩, -, -⟩
    ihave Harr := (entry_arrays m c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = iprop(∃ d, owns (c : Thread nD τ) scM fullShare d) from rfl, scopedRest_scratch]
    iintro ⟨-, -, Hr⟩
    iexact Hr
  hout c := by
    rw [Pipeline.ownSems0_none, scopedRest_scratch,
      show (dats m 0 c).Φ (Fin.last cfg0.N) = owns (c : Thread nD τ) scM fullShare (tot m c 15) from rfl]
    iintro H
    isplitr; · iempintro
    isplitr; · iempintro
    iexists _; iexact H
  hexit c := by
    rw [held_list]
    iintro ⟨Ha, HO, -, HZ⟩
    ihave Harr := (exit_arrays m c) $$ Ha
    imodintro
    isplitr [HO]
    · isplitl [Harr]; · iexact Harr
      simp only [Vexit_ne m c main_arg1 (by decide), Vexit_ne m c main_v0 (by decide), Vexit_ne m c main_v2 (by decide), Vexit_ne m c main_cst (by decide),
        Vexit_ne m c main_v5 (by decide), Vexit_ne m c main_cst_0 (by decide), Vexit_ne m c main_v6 (by decide), Vexit_ne m c main_v7 (by decide)]
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ Lp lv) := [.host (seg0 m), .region (reg0 m), .host (seg1 m)]

/-- The launch element: the pipeline library's, at the staging cells. -/
def u₀ : UR sig nD τ := initOf (Pipeline.cells cfgs cellOf_inj) (Pipeline.launchToks cfgs cellOf_inj)

/-! ## The run -/

set_option backward.isDefEq.respectTransparency.types false in
/-- At the compiled mesh, for any float values, from any memory with zero counters: every weakly fair execution of
    @main on the TensorCores terminates, and every final state has the result at what the operations after the region
    compute from the kernel's two cells, and both arguments unchanged. -/
theorem run_main : θ_run defs (onTc (τ := τ) (main (F := F))) ⟨m, fun _ => 0, ρ⟩ (fun r => ∀ c : Dev nD,
      r.2.mem ((c : Thread nD τ).loc main_v7) = Vfin m c (Proc.devRef .tc main_v7)
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit (pcfgs (F := F)) adm (dats m) () cellOf_inj EP defs₀ 𝒱₀ Lp lv m ρ main (segs m)
    (fun c Q => by rw [main_segs adm (dats m) () 𝒱₀ Lp lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vlaunch m c) ∗ R c))
    (Tₙ := fun c => StableHlo.held (c : Thread nD τ) (Pipeline.ucRefs τ sig) (Vfin m c))
    (hch := ⟨fun _ => .rfl, fun _ => .rfl, fun _ => .rfl, fun _ => .rfl⟩)
    (hinit := by
      refine Pipeline.initEach Lp lv fun c => ?_
      rw [show unscopedBufs c (fun b => m ((c : Thread nD τ).loc b)) = StableHlo.held (c : Thread nD τ) (Pipeline.ucRefs τ sig) (Vlaunch m c) from Pipeline.unscopedBufs_held c (Vlaunch m c)]
      iintro ⟨⟨Hh, -, HO, -, -, -⟩, -⟩
      imodintro
      isplitl [Hh]; · iexact Hh
      iexists ∅; iexact HO)
    (QY := fun c s => s.mem ((c : Thread nD τ).loc main_v7) = Vfin m c (Proc.devRef .tc main_v7)
      ∧ s.mem ((c : Thread nD τ).loc main_arg0) = m ((c : Thread nD τ).loc main_arg0)
      ∧ s.mem ((c : Thread nD τ).loc main_arg1) = m ((c : Thread nD τ).loc main_arg1))
    (hfin := fun c s' => by
      rw [held_list, Vfin_arg0, Vfin_arg1]
      iintro ⟨⟨⟨Hx, -, -, -⟩, ⟨H1, -, -, -, -, -, -, H7⟩⟩, HSI⟩
      icombine HSI Hx gives %hx
      icombine HSI H1 gives %h1
      icombine HSI H7 gives %h7
      imodintro
      isplitr; · ipureintro; exact ⟨Buf.eq_of_forall_mem_univ h7, Buf.eq_of_forall_mem_univ hx, Buf.eq_of_forall_mem_univ h1⟩
      iexact HSI)
    (hQ := fun _ h => h)

end Cert.KernelIdeal.Hand

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.Result.lean ====
/-
  What the run leaves in the result, as a function of the two arguments.

  The region finds `x` as launched and the two label columns as the halves of the label vector, reshaped. Block `n` of
  the first window on `x` is rows 2048 n … of `x`; block `n` of the second window is rows 32768 + 2048 n …; block `n` of
  a label column is the corresponding labels. So the running total after each grid position is `Pairs.totalAfter` over
  the argument arrays' blocks, the result array — written back after the last block of each cell — is `Pairs.cells`,
  and the five host operations after the region compute `Pairs.finish` of it.
-/
import proofs.«162703_j70763881169378_2_alg».proof.Proof.Launch
import proofs.«162703_j70763881169378_2_alg».proof.Proof.LibKeepdims
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The buffers at the region's entry -/

theorem V_arg0 (c : Dev nD) : V m c main_arg0 = m ((c : Thread nD τ).loc main_arg0) :=
  StableHlo.after_of_forall_not_mem (b := Proc.devRef .tc main_arg0) hostOps0 (Vlaunch m c) (not_written0 main_arg0 (by decide))

/-- The first label column: the first half of the labels, as a column. -/
theorem V_v1 (c : Dev nD) : (V m c main_v1 : S32768x1.Idx → Elt F .i32)
    = shapeCast S32768x1 (extractStridedSlice S32768 ![0] (m ((c : Thread nD τ).loc main_arg1)) slices_S65536_S32768_0) shapeCasts_S32768_S32768x1 := by
  dsimp only [V, Ventry, hostOps0]; after_results; rfl

/-- The second label column: the second half of the labels, as a column. -/
theorem V_v3 (c : Dev nD) : (V m c main_v3 : S32768x1.Idx → Elt F .i32)
    = shapeCast S32768x1 (extractStridedSlice S32768 ![32768] (m ((c : Thread nD τ).loc main_arg1)) slices_S65536_S32768_32768) shapeCasts_S32768_S32768x1 := by
  dsimp only [V, Ventry, hostOps0]; after_results; rfl

/-! ## The index maps over the grid -/

theorem idx_in : ∀ t : Fin cfg0.N,
    win0_0.index t (0 : Fin 2) = t.val ∧ win0_0.index t (1 : Fin 2) = 0
    ∧ win0_1.index t (0 : Fin 2) = 16 + t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val / 8 ∧ win0_4.index t (1 : Fin 3) = 0 ∧ win0_4.index t (2 : Fin 3) = 0 :=
  (by decide +kernel : ∀ t : Fin grid0.N, _)

theorem pt_lt (n : ℕ) (hn : n < 16) : (pt n).val = n := by
  show n % cfg0.N = n
  rw [show cfg0.N = 16 from N_0]; exact Nat.mod_eq_of_lt hn

/-! ## The blocks as rows of the arguments -/

theorem X1_eq (c : Dev nD) (n : ℕ) (hn : n < 16) : X1 m c n = Pairs.rowsLo (m ((c : Thread nD τ).loc main_arg0)) n := by
  unfold X1 iblk Pairs.rowsLo
  funext y
  show V m c main_arg0 (((cfg0.win 0).blk (pt n)).view.emb y) = _
  rw [V_arg0]
  refine congrArg (m ((c : Thread nD τ).loc main_arg0)) (funext fun a => Fin.ext ?_)
  obtain ⟨e0, e1, -⟩ := idx_in (pt n)
  have hp := pt_lt n hn
  have hy : (y 0).val < 2048 := (y 0).isLt
  match a with
  | ⟨0, _⟩ =>
    show win0_0.index (pt n) (0 : Fin 2) * 2048 + 1 * (y 0).val = (2048 * n + (y 0).val) % 65536
    rw [e0, hp]; omega
  | ⟨1, _⟩ =>
    show win0_0.index (pt n) (1 : Fin 2) * 512 + 1 * (y 1).val = (y 1).val
    rw [e1]; omega

theorem X2_eq (c : Dev nD) (n : ℕ) (hn : n < 16) : X2 m c n = Pairs.rowsHi (m ((c : Thread nD τ).loc main_arg0)) n := by
  unfold X2 iblk Pairs.rowsHi
  funext y
  show V m c main_arg0 (((cfg0.win 1).blk (pt n)).view.emb y) = _
  rw [V_arg0]
  refine congrArg (m ((c : Thread nD τ).loc main_arg0)) (funext fun a => Fin.ext ?_)
  obtain ⟨-, -, e0, e1, -⟩ := idx_in (pt n)
  have hp := pt_lt n hn
  have hy : (y 0).val < 2048 := (y 0).isLt
  match a with
  | ⟨0, _⟩ =>
    show win0_1.index (pt n) (0 : Fin 2) * 2048 + 1 * (y 0).val = (32768 + 2048 * n + (y 0).val) % 65536
    rw [e0, hp]; omega
  | ⟨1, _⟩ =>
    show win0_1.index (pt n) (1 : Fin 2) * 512 + 1 * (y 1).val = (y 1).val
    rw [e1]; omega

theorem L1_eq (c : Dev nD) (n : ℕ) (hn : n < 16) : L1 m c n = Pairs.labLo (m ((c : Thread nD τ).loc main_arg1)) n := by
  unfold L1 iblk Pairs.labLo
  funext y
  show V m c main_v1 (((cfg0.win 2).blk (pt n)).view.emb y) = _
  rw [V_v1]
  obtain ⟨-, -, -, -, e0, e1, -⟩ := idx_in (pt n)
  have hp := pt_lt n hn
  have hy : (y 0).val < 2048 := (y 0).isLt
  have hy1 : (y 1).val < 1 := (y 1).isLt
  have hj : ((cfg0.win 2).blk (pt n)).view.emb y = ix2 (⟨2048 * n + (y 0).val, by omega⟩ : Fin 32768) (0 : Fin 1) := by
    funext a; apply Fin.ext
    match a with
    | ⟨0, _⟩ => show win0_2.index (pt n) (0 : Fin 2) * 2048 + 1 * (y 0).val = 2048 * n + (y 0).val; rw [e0, hp]; omega
    | ⟨1, _⟩ => show win0_2.index (pt n) (1 : Fin 2) * 1 + 1 * (y 1).val = 0; rw [e1]; omega
  rw [hj, Cert.MemAttn.Layout.shapeCast_a_a1_apply]
  refine extractStridedSlice_apply ![0] (m ((c : Thread nD τ).loc main_arg1)) slices_S65536_S32768_0 _ _ (fun a => ?_)
  match a with
  | ⟨0, _⟩ => show (2048 * n + (y 0).val) % 65536 = 0 + (2048 * n + (y 0).val); omega

theorem L2_eq (c : Dev nD) (n : ℕ) (hn : n < 16) : L2 m c n = Pairs.labHi (m ((c : Thread nD τ).loc main_arg1)) n := by
  unfold L2 iblk Pairs.labHi
  funext y
  show V m c main_v3 (((cfg0.win 3).blk (pt n)).view.emb y) = _
  rw [V_v3]
  obtain ⟨-, -, -, -, -, -, e0, e1, -⟩ := idx_in (pt n)
  have hp := pt_lt n hn
  have hy : (y 0).val < 2048 := (y 0).isLt
  have hy1 : (y 1).val < 1 := (y 1).isLt
  have hj : ((cfg0.win 3).blk (pt n)).view.emb y = ix2 (⟨2048 * n + (y 0).val, by omega⟩ : Fin 32768) (0 : Fin 1) := by
    funext a; apply Fin.ext
    match a with
    | ⟨0, _⟩ => show win0_3.index (pt n) (0 : Fin 2) * 2048 + 1 * (y 0).val = 2048 * n + (y 0).val; rw [e0, hp]; omega
    | ⟨1, _⟩ => show win0_3.index (pt n) (1 : Fin 2) * 1 + 1 * (y 1).val = 0; rw [e1]; omega
  rw [hj, Cert.MemAttn.Layout.shapeCast_a_a1_apply]
  refine extractStridedSlice_apply ![32768] (m ((c : Thread nD τ).loc main_arg1)) slices_S65536_S32768_32768 _ _ (fun a => ?_)
  match a with
  | ⟨0, _⟩ => show (32768 + 2048 * n + (y 0).val) % 65536 = 32768 + (2048 * n + (y 0).val); omega

/-- The running total depends on the blocks up to the position only. -/
theorem totalAfter_congr {A1 A2 B1 B2 : ℕ → Vec F S2048x512 .f32} {C1 C2 D1 D2 : ℕ → Vec F S2048x1 .i32} (N : ℕ)
    (h : ∀ k, k < N → A1 k = B1 k ∧ A2 k = B2 k ∧ C1 k = D1 k ∧ C2 k = D2 k) :
    ∀ n, n < N → Pairs.totalAfter A1 A2 C1 C2 n = Pairs.totalAfter B1 B2 D1 D2 n
  | 0, hn => by
    rw [Pairs.totalAfter_zero, Pairs.totalAfter_zero, (h 0 hn).1, (h 0 hn).2.1, (h 0 hn).2.2.1, (h 0 hn).2.2.2]
  | n + 1, hn => by
    rw [Pairs.totalAfter_succ, Pairs.totalAfter_succ, (h _ hn).1, (h _ hn).2.1, (h _ hn).2.2.1, (h _ hn).2.2.2,
      totalAfter_congr N h n (Nat.lt_of_succ_lt hn)]

/-- The scratch after position `n` holds the running total of the argument arrays' blocks. -/
theorem tot_eq_pairs (c : Dev nD) (n : ℕ) (hn : n < 16) :
    tot m c n = Pairs.totalAfter (Pairs.rowsLo (m ((c : Thread nD τ).loc main_arg0))) (Pairs.rowsHi (m ((c : Thread nD τ).loc main_arg0))) (Pairs.labLo (m ((c : Thread nD τ).loc main_arg1))) (Pairs.labHi (m ((c : Thread nD τ).loc main_arg1))) n := by
  unfold tot
  exact totalAfter_congr 16 (fun k hk => ⟨X1_eq m c k hk, X2_eq m c k hk, L1_eq m c k hk, L2_eq m c k hk⟩) n hn

/-! ## The result array -/

/-- Cell `p` of the result: the total after the last block of its group. -/
def Gout (c : Dev nD) : S2x1x1.Idx → Elt F .f32 := fun j => tot m c (8 * (j 0).val + 7) (ix3 (0 : Fin 1) (0 : Fin 1) (0 : Fin 1))

theorem one_idx (y : S1x1x1.Idx) : y = ix3 (0 : Fin 1) (0 : Fin 1) (0 : Fin 1) := by
  funext a; apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

/-- What a last block writes back is its cell of `Gout`. -/
theorem flushed4_eq (c : Dev nD) (t : Fin cfg0.N) (hf : (cfg0.win 4).flush t = true) :
    (dats m 0 c).flushed 4 t = ((cfg0.win 4).blk t).view.read (Elt F) (Gout m c) := by
  show (cfg0.win 4).cut (grid0.coords t) ((dats m 0 c).after 4 t) = _
  rw [after_4]
  have h7 : t.val % 8 = 7 := (flush0_4 t).mp hf
  have hN : t.val < 16 := lt_of_lt_of_eq t.isLt (show cfg0.N = 16 from N_0)
  obtain ⟨-, -, -, -, -, -, -, -, e0, e1, e2⟩ := idx_in t
  funext y
  show tot m c t.val y = Gout m c (((cfg0.win 4).blk t).view.emb y)
  have hy0 : (y 0).val < 1 := (y 0).isLt
  have hy1 : (y 1).val < 1 := (y 1).isLt
  have hy2 : (y 2).val < 1 := (y 2).isLt
  have hemb : ((cfg0.win 4).blk t).view.emb y = ix3 (⟨t.val / 8, by omega⟩ : Fin 2) (0 : Fin 1) (0 : Fin 1) := by
    funext a; apply Fin.ext
    match a with
    | ⟨0, _⟩ => show win0_4.index t (0 : Fin 3) * 1 + 1 * (y 0).val = t.val / 8; rw [e0]; omega
    | ⟨1, _⟩ => show win0_4.index t (1 : Fin 3) * 1 + 1 * (y 1).val = 0; rw [e1]; omega
    | ⟨2, _⟩ => show win0_4.index t (2 : Fin 3) * 1 + 1 * (y 2).val = 0; rw [e2]; omega
  rw [hemb, one_idx y]
  show tot m c t.val _ = tot m c (8 * (t.val / 8) + 7) _
  rw [show 8 * (t.val / 8) + 7 = t.val from by omega]

theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v4).slice (win0_4.rect t)).set ↔ _
  rw [View.set_slice_whole, Rect.mem_set_unit]
  exact Iff.rfl

/-- Every cell is some last block's. -/
theorem cover4 (i : S2x1x1.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1 := (i 2).isLt
  have ht : 8 * (i 0).val + 7 < cfg0.N := by rw [show cfg0.N = 16 from N_0]; omega
  refine ⟨⟨8 * (i 0).val + 7, ht⟩, (flush0_4 _).mpr (by show (8 * (i 0).val + 7) % 8 = 7; omega), ?_⟩
  rw [mem_blk4]
  obtain ⟨-, -, -, -, -, -, -, -, e0, e1, e2⟩ := idx_in ⟨8 * (i 0).val + 7, ht⟩
  intro a
  match a with
  | ⟨0, _⟩ =>
    show win0_4.index ⟨8 * (i 0).val + 7, ht⟩ (0 : Fin 3) * 1 ≤ (i 0).val ∧ (i 0).val < win0_4.index ⟨8 * (i 0).val + 7, ht⟩ (0 : Fin 3) * 1 + 1
    rw [e0]; show (8 * (i 0).val + 7) / 8 * 1 ≤ (i 0).val ∧ (i 0).val < (8 * (i 0).val + 7) / 8 * 1 + 1; omega
  | ⟨1, _⟩ =>
    show win0_4.index ⟨8 * (i 0).val + 7, ht⟩ (1 : Fin 3) * 1 ≤ (i 1).val ∧ (i 1).val < win0_4.index ⟨8 * (i 0).val + 7, ht⟩ (1 : Fin 3) * 1 + 1
    rw [e1]; omega
  | ⟨2, _⟩ =>
    show win0_4.index ⟨8 * (i 0).val + 7, ht⟩ (2 : Fin 3) * 1 ≤ (i 2).val ∧ (i 2).val < win0_4.index ⟨8 * (i 0).val + 7, ht⟩ (2 : Fin 3) * 1 + 1
    rw [e2]; omega

/-- The result array after the region. -/
theorem final4 (c : Dev nD) : (dats m 0 c).arrAt 4 cfg0.N = Gout m c :=
  (dats m 0 c).arrAt_eq_of_cover 4 (Gout m c) (fun t hf => flushed4_eq m c t hf) cover4

theorem Gout_eq_cells (c : Dev nD) : Gout m c = Pairs.cells (m ((c : Thread nD τ).loc main_arg0)) (m ((c : Thread nD τ).loc main_arg1)) := by
  funext j
  have hj : (j 0).val < 2 := (j 0).isLt
  unfold Gout Pairs.cells
  rw [tot_eq_pairs m c _ (by omega)]

/-! ## The result -/

/-- The five operations after the region compute `Pairs.finish` of the result array. -/
theorem Vfin_v7 (c : Dev nD) : (Vfin m c (Proc.devRef .tc main_v7) : S1.Idx → Elt F .f32) = Pairs.finish (Vexit m c (Proc.devRef .tc main_v4)) := by
  dsimp only [Vfin, hostOps1]; after_results; rfl

theorem result_eq (c : Dev nD) : (Vfin m c (Proc.devRef .tc main_v7) : S1.Idx → Elt F .f32) = Pairs.finish (Pairs.cells (m ((c : Thread nD τ).loc main_arg0)) (m ((c : Thread nD τ).loc main_arg1))) := by
  rw [Vfin_v7, Vexit_v4, final4, Gout_eq_cells]

/-- THE RUN, READ: the result is `Pairs.finish (Pairs.cells x lab)` of the launch arguments, which end unchanged. -/
theorem run_value : θ_run defs (onTc (τ := τ) (main (F := F))) ⟨m, fun _ => 0, ρ⟩ (fun r => ∀ c : Dev nD,
      r.2.mem ((c : Thread nD τ).loc main_v7) = Pairs.finish (Pairs.cells (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (result_eq m c), (h c).2⟩) (run_main m ρ)

end Cert.KernelIdeal.Hand

end
-- ==== Proof.PairLoss.lean ====
/-
  The loss of one pair of rows, on the extended reals.

  A pair is two rows `a`, `b` of 512 entries with two labels. Where the labels differ the pair contributes its squared
  distance `Σ (a c − b c)²`; where they agree it contributes `max (1 − √(Σ (a c − (b c)²)²)) 0`. Both programs compute
  exactly this function of a pair; everything else in the comparison is the order in which the pairs' losses are added.
-/
import Idealize.ShloMosaic.PureOps.Ideal.Laws
import Idealize.ShloMosaic.Lib.ValueIdx

noncomputable section

open scoped BigOperators

namespace Cert.KernelIdeal.Pairs

open Idealize.ShloMosaic Idealize.ShloMosaic.ValueIdx

/-- The loss of one pair: rows `a`, `b` with labels `la`, `lb`. The two float literals (`1.0` and `0.0`) are kept as the
    words the programs write. -/
def pairLoss (a b : Fin 512 → EReal) (la lb : BitVec 32) : EReal :=
  Scalar.select (IntOp.cmpi .ne la lb)
    (∑ c : Fin 512, (a c - b c) * (a c - b c))
    (max (Ideal.ofBits .f32 0x3F800000#32 - Ideal.sqrt (∑ c : Fin 512, (a c - b c * b c) * (a c - b c * b c)))
      (Ideal.ofBits .f32 0x00000000#32))

/-- The same function with each row sum started from the word `0.0`, as a host reduction starts it. -/
theorem pairLoss_zero_add (a b : Fin 512 → EReal) (la lb : BitVec 32) :
    Scalar.select (IntOp.cmpi .ne la lb)
      (Ideal.ofBits .f32 0x00000000#32 + ∑ c : Fin 512, (a c - b c) * (a c - b c))
      (max (Ideal.ofBits .f32 0x3F800000#32
          - Ideal.sqrt (Ideal.ofBits .f32 0x00000000#32 + ∑ c : Fin 512, (a c - b c * b c) * (a c - b c * b c)))
        (Ideal.ofBits .f32 0x00000000#32))
      = pairLoss a b la lb := by
  unfold pairLoss
  rw [Ideal.ofBits_zero_f32, zero_add, zero_add]

end Cert.KernelIdeal.Pairs

end
-- ==== Proof.BlockUpdate.lean ====
/-
  One block of the kernel's walk, read on the extended reals.

  The block update takes the running total and a block of 2048 pairs (the two members' rows and the two label columns)
  and returns the total plus the sum, over the block's 2048 pairs, of the pair's loss. The update computes the two row
  sums of a pair as lane sums kept as columns, selects between them row by row, sums the column, and adds the result to
  the total through unit-axis casts; read at its one index each step is the corresponding step of `pairLoss`.
-/
import proofs.«162703_j70763881169378_2_alg».proof.Proof.Spec
import proofs.«162703_j70763881169378_2_alg».proof.Proof.PairLoss
import proofs.«162703_j70763881169378_2_alg».proof.Proof.LibKeepdims
import Idealize.ShloMosaic.PureOps.Ideal.Laws
import Idealize.ShloMosaic.Lib.Pipeline.Value

noncomputable section

open scoped BigOperators

namespace Cert.KernelIdeal.Pairs

open Idealize.ShloMosaic Idealize.ShloMosaic.ValueIdx Cert.KernelIdeal Cert.KernelIdeal.Gen

/-! ## Layout facts the block needs -/

/-- A one-element vector viewed `[1, 1]` and then `[1, 1, 1]` holds, at its one index, the vector's element. -/
theorem cast_1_111_apply {α : Type} (w : S1.Idx → α) (h1 : S1.ShapeCasts S1x1) (h2 : S1x1.ShapeCasts S1x1x1) :
    shapeCast S1x1x1 (shapeCast S1x1 w h1) h2 (ix3 (0 : Fin 1) (0 : Fin 1) (0 : Fin 1)) = w (ix1 (0 : Fin 1)) :=
  (shapeCast_apply (shapeCast S1x1 w h1) h2 (ix3 (0 : Fin 1) (0 : Fin 1) (0 : Fin 1)) (ix2 (0 : Fin 1) (0 : Fin 1)) (by
      rw [Shape.rowMajor_val_two, Shape.rowMajor_val_three]; rfl)).trans
    (shapeCast_apply w h1 (ix2 (0 : Fin 1) (0 : Fin 1)) (ix1 (0 : Fin 1)) (by
      rw [Shape.rowMajor_val_one, Shape.rowMajor_val_two]; rfl))

/-- In a column `[m, 1]` summed over its rows, putting the row coordinate `k` back gives the index `(k, u)`. -/
theorem lift_col {m : ℕ} (h : (⟨2, ![m, 1]⟩ : Shape).Reduces [0] (⟨1, ![1]⟩ : Shape)) (u : Fin 1)
    (k : Fin ((⟨2, ![m, 1]⟩ : Shape).size 0)) : h.lift (ix1 u) k = ix2 (⟨k.val, k.isLt⟩ : Fin m) u := by
  funext c; apply Fin.ext
  fin_cases c <;> rfl

/-- A sum over the rows of a column `[m, 1]` of extended reals: the sum of the column's entries. -/
theorem multiReduction_add_col {m : ℕ} {φ : FTy} (src : FVec Ideal ⟨2, ![m, 1]⟩ φ) (acc : BitVec φ.bits)
    (h : (⟨2, ![m, 1]⟩ : Shape).Reduces [0] (⟨1, ![1]⟩ : Shape)) (hφ : FKind.Formats φ) (hacc : acc = FKind.add.neutral φ hφ)
    (u : Fin 1) :
    multiReduction .add [0] ⟨1, ![1]⟩ src acc h hφ hacc (ix1 u) = ∑ r : Fin m, src (ix2 r u) :=
  (Ideal.multiReduction_add_single src acc h hφ hacc (ix1 u)).trans
    (Finset.sum_congr rfl fun k _ => congrArg src (lift_col h u k))

/-! ## The block update's stages -/

/-- The column of squared distances of a block: row `r` holds `Σ (X1 (r, c) − X2 (r, c))²`. -/
def distCol (X1 X2 : FVec Ideal S2048x512 .f32) : FVec Ideal S2048x1 .f32 :=
  shapeCast S2048x1
    (multiReduction (F := Ideal) .add [1] S2048 (mulf (subf X1 X2) (subf X1 X2)) 0x00000000#32 reduces_S2048x512_S2048 (.inl rfl) rfl)
    shapeCasts_S2048_S2048x1

/-- The column of the second row sums: row `r` holds `Σ (X1 (r, c) − X2 (r, c)²)²`. -/
def marginCol (X1 X2 : FVec Ideal S2048x512 .f32) : FVec Ideal S2048x1 .f32 :=
  shapeCast S2048x1
    (multiReduction (F := Ideal) .add [1] S2048 (mulf (subf X1 (mulf X2 X2)) (subf X1 (mulf X2 X2))) 0x00000000#32
      reduces_S2048x512_S2048 (.inl rfl) rfl)
    shapeCasts_S2048_S2048x1

/-- The column of per-pair losses of a block. -/
def lossCol (X1 X2 : FVec Ideal S2048x512 .f32) (L1 L2 : IVec S2048x1 32) : FVec Ideal S2048x1 .f32 :=
  select (cmpi .ne (shapeCast S2048x1 L1 shapeCasts_S2048x1_S2048x1) (shapeCast S2048x1 L2 shapeCasts_S2048x1_S2048x1))
    (distCol X1 X2)
    (maximumf (subf (broadcast S2048x1 (Scalar.ofBits (F := Ideal) .f32 0x3F800000#32)) (sqrt (marginCol X1 X2)))
      (broadcast S2048x1 (Scalar.ofBits (F := Ideal) .f32 0x00000000#32)))

/-- The block update is: the total plus the loss column's sum, through unit-axis casts. -/
theorem k0_pay2_eq (X1 X2 : FVec Ideal S2048x512 .f32) (L1 L2 : IVec S2048x1 32) (prev : FVec Ideal S1x1x1 .f32) :
    k0_pay2 (F := Ideal) X1 X2 L1 L2 prev
      = shapeCast S1x1x1
          (addf prev
            (shapeCast S1x1x1
              (shapeCast S1x1
                (multiReduction (F := Ideal) .add [0] S1 (lossCol X1 X2 L1 L2) 0x00000000#32 reduces_S2048x1_S1 (.inl rfl) rfl)
                shapeCasts_S1_S1x1)
              shapeCasts_S1x1_S1x1x1))
          shapeCasts_S1x1x1_S1x1x1 := rfl

/-- Row `r` of the squared-distance column. -/
theorem distCol_apply (X1 X2 : FVec Ideal S2048x512 .f32) (r : Fin 2048) (u : Fin 1) :
    distCol X1 X2 (ix2 r u) = ∑ c : Fin 512, (X1 (ix2 r c) - X2 (ix2 r c)) * (X1 (ix2 r c) - X2 (ix2 r c)) := by
  unfold distCol
  refine (Cert.MemAttn.Layout.shapeCast_a_a1_apply _ shapeCasts_S2048_S2048x1 r u).trans ?_
  exact Cert.MemAttn.Layout.multiReduction_add_row (mulf (subf X1 X2) (subf X1 X2)) 0x00000000#32 reduces_S2048x512_S2048 (.inl rfl) rfl r

/-- Row `r` of the second column. -/
theorem marginCol_apply (X1 X2 : FVec Ideal S2048x512 .f32) (r : Fin 2048) (u : Fin 1) :
    marginCol X1 X2 (ix2 r u)
      = ∑ c : Fin 512, (X1 (ix2 r c) - X2 (ix2 r c) * X2 (ix2 r c)) * (X1 (ix2 r c) - X2 (ix2 r c) * X2 (ix2 r c)) := by
  unfold marginCol
  refine (Cert.MemAttn.Layout.shapeCast_a_a1_apply _ shapeCasts_S2048_S2048x1 r u).trans ?_
  exact Cert.MemAttn.Layout.multiReduction_add_row (mulf (subf X1 (mulf X2 X2)) (subf X1 (mulf X2 X2))) 0x00000000#32
    reduces_S2048x512_S2048 (.inl rfl) rfl r

/-- Row `r` of the loss column is the loss of the block's pair `r`. -/
theorem lossCol_apply (X1 X2 : FVec Ideal S2048x512 .f32) (L1 L2 : IVec S2048x1 32) (r : Fin 2048) (u : Fin 1) :
    lossCol X1 X2 L1 L2 (ix2 r u)
      = pairLoss (fun c => X1 (ix2 r c)) (fun c => X2 (ix2 r c)) (L1 (ix2 r u)) (L2 (ix2 r u)) := by
  unfold lossCol pairLoss
  rw [shapeCast_self, shapeCast_self]
  show Scalar.select (IntOp.cmpi .ne (L1 (ix2 r u)) (L2 (ix2 r u))) (distCol X1 X2 (ix2 r u))
      (max (Ideal.ofBits .f32 0x3F800000#32 - Ideal.sqrt (marginCol X1 X2 (ix2 r u))) (Ideal.ofBits .f32 0x00000000#32)) = _
  rw [distCol_apply, marginCol_apply]

/-! ## The two payloads at their one index -/

/-- The reset value is zero. -/
theorem k0_pay1_apply (j : S1x1x1.Idx) : k0_pay1 (F := Ideal) j = 0 := by
  show shapeCast S1x1x1 (broadcast S1x1x1 (Scalar.ofBits (F := Ideal) .f32 0x00000000#32)) shapeCasts_S1x1x1_S1x1x1 j = 0
  rw [shapeCast_self]
  exact Ideal.ofBits_zero_f32

/-- THE BLOCK UPDATE: the total so far plus the sum of the block's 2048 pair losses. -/
theorem k0_pay2_apply (X1 X2 : FVec Ideal S2048x512 .f32) (L1 L2 : IVec S2048x1 32) (prev : FVec Ideal S1x1x1 .f32) :
    k0_pay2 (F := Ideal) X1 X2 L1 L2 prev (ix3 (0 : Fin 1) (0 : Fin 1) (0 : Fin 1))
      = prev (ix3 (0 : Fin 1) (0 : Fin 1) (0 : Fin 1))
        + ∑ r : Fin 2048, pairLoss (fun c => X1 (ix2 r c)) (fun c => X2 (ix2 r c))
            (L1 (ix2 r (0 : Fin 1))) (L2 (ix2 r (0 : Fin 1))) := by
  rw [k0_pay2_eq, shapeCast_self]
  refine congrArg (prev (ix3 (0 : Fin 1) (0 : Fin 1) (0 : Fin 1)) + ·) ?_
  refine (cast_1_111_apply _ shapeCasts_S1_S1x1 shapeCasts_S1x1_S1x1x1).trans ?_
  refine (multiReduction_add_col (lossCol X1 X2 L1 L2) 0x00000000#32 reduces_S2048x1_S1 (.inl rfl) rfl (0 : Fin 1)).trans ?_
  exact Finset.sum_congr rfl fun r _ => lossCol_apply X1 X2 L1 L2 r (0 : Fin 1)

end Cert.KernelIdeal.Pairs

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.PairSums.lean ====
/-
  The pairs of the argument arrays, and the sum of their losses in two groupings.

  Pair `r` (`r < 32768`) of an array `x : [65536, 512]` with labels `l : [65536]` is row `r` with row `32768 + r`.
  The total loss is the sum over the 32768 pairs. The same sum can be taken as 2 groups of 8 blocks of 2048 consecutive
  pairs: addition on the extended reals is a commutative monoid operation, and that is all the regrouping uses.
-/
import proofs.«162703_j70763881169378_2_alg».proof.Proof.PairLoss
import proofs.«162703_j70763881169378_2_alg».proof.Proof.LibUnitAxisSums

noncomputable section

open scoped BigOperators

namespace Cert.KernelIdeal.Pairs

open Idealize.ShloMosaic Idealize.ShloMosaic.ValueIdx

/-- The loss of pair `r` of the arrays: rows `r` and `32768 + r` of `x`, labels `r` and `32768 + r` of `l`. -/
def lossAt (x : (⟨2, ![65536, 512]⟩ : Shape).Idx → EReal) (l : (⟨1, ![65536]⟩ : Shape).Idx → BitVec 32) (r : Fin 32768) : EReal :=
  pairLoss (fun c => x (ix2 (⟨r.val, by have := r.isLt; omega⟩ : Fin 65536) c))
    (fun c => x (ix2 (⟨32768 + r.val, by have := r.isLt; omega⟩ : Fin 65536) c))
    (l (ix1 (⟨r.val, by have := r.isLt; omega⟩ : Fin 65536)))
    (l (ix1 (⟨32768 + r.val, by have := r.isLt; omega⟩ : Fin 65536)))

/-- A pair's loss depends on the rows entry by entry and on the two labels. -/
theorem pairLoss_congr {a a' b b' : Fin 512 → EReal} {la la' lb lb' : BitVec 32} (ha : ∀ c, a c = a' c) (hb : ∀ c, b c = b' c)
    (hla : la = la') (hlb : lb = lb') : pairLoss a b la lb = pairLoss a' b' la' lb' := by
  obtain rfl : a = a' := funext ha
  obtain rfl : b = b' := funext hb
  subst hla hlb
  rfl

/-- The index set of the shape `[n, 1, 1]` is `Fin n`: the two unit coordinates are `0`. -/
def idxEquiv_n11 {n : Nat} : (⟨3, ![n, 1, 1]⟩ : Shape).Idx ≃ Fin n where
  toFun i := i 0
  invFun p := ix3 p (0 : Fin 1) (0 : Fin 1)
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- … so a sum over it is the sum over the leading coordinate. -/
theorem sum_idx_n11 {M : Type*} [AddCommMonoid M] {n : Nat} (f : (⟨3, ![n, 1, 1]⟩ : Shape).Idx → M) :
    ∑ i, f i = ∑ p : Fin n, f (ix3 p (0 : Fin 1) (0 : Fin 1)) := by
  rw [← Equiv.sum_comp (idxEquiv_n11 (n := n)).symm f]
  rfl

/-- THE REGROUPING: a sum over 32768 consecutive positions taken as 2 groups of 8 blocks of 2048. -/
theorem sum_pairs_regroup {M : Type*} [AddCommMonoid M] (g : Fin 32768 → M) :
    ∑ q, g q = ∑ p : Fin 2, ∑ k : Fin 8, ∑ r : Fin 2048,
      g ⟨2048 * (8 * p.val + k.val) + r.val, by have := p.isLt; have := k.isLt; have := r.isLt; omega⟩ :=
  (sum_fin_blocks 16 2048 g).trans
    (sum_fin_blocks 2 8 fun b : Fin 16 => ∑ r : Fin 2048,
      g ⟨2048 * b.val + r.val, by have := b.isLt; have := r.isLt; omega⟩)

end Cert.KernelIdeal.Pairs

end
-- ==== Proof.Totals.lean ====
/-
  The running total of the kernel's walk, read on the extended reals.

  Block `b` (`b < 16`) of the walk holds the pairs `2048 b … 2048 b + 2047`, so the block update adds the sum of those
  pairs' losses. The total is reset at the first block of each group of eight, so after block `8 p + i` (`i < 8`) it is
  the sum of the block sums `8 p … 8 p + i`, and each output cell is the sum of its eight block sums.
-/
import proofs.«162703_j70763881169378_2_alg».proof.Proof.BlockUpdate
import proofs.«162703_j70763881169378_2_alg».proof.Proof.PairSums

noncomputable section

open scoped BigOperators

namespace Cert.KernelIdeal.Pairs

open Idealize.ShloMosaic Idealize.ShloMosaic.ValueIdx Cert.KernelIdeal Cert.KernelIdeal.Gen

/-- The sum of the losses of the 2048 pairs of block `b`, over the block's arrays as the walk reads them. -/
def blockSum (x : Vec Ideal S65536x512 .f32) (l : Vec Ideal S65536 .i32) (b : ℕ) : EReal :=
  ∑ r : Fin 2048, pairLoss (fun c => rowsLo (F := Ideal) x b (ix2 r c)) (fun c => rowsHi (F := Ideal) x b (ix2 r c))
    (labLo (F := Ideal) l b (ix2 r (0 : Fin 1))) (labHi (F := Ideal) l b (ix2 r (0 : Fin 1)))

/-- For a block of the walk (`b < 16`) the block's pairs are the pairs `2048 b + r` of the arrays. -/
theorem blockSum_eq (x : Vec Ideal S65536x512 .f32) (l : Vec Ideal S65536 .i32) (b : ℕ) (hb : b < 16) :
    blockSum x l b = ∑ r : Fin 2048, lossAt x l ⟨2048 * b + r.val, by have := r.isLt; omega⟩ := by
  unfold blockSum
  refine Finset.sum_congr rfl fun r _ => ?_
  have hr := r.isLt
  exact pairLoss_congr
    (fun c => congrArg x (congrArg (fun i : Fin 65536 => ix2 i c) (Fin.ext (show (2048 * b + r.val) % 65536 = 2048 * b + r.val by omega))))
    (fun c => congrArg x (congrArg (fun i : Fin 65536 => ix2 i c)
      (Fin.ext (show (32768 + 2048 * b + r.val) % 65536 = 32768 + (2048 * b + r.val) by omega))))
    (congrArg l (congrArg (fun i : Fin 65536 => ix1 i) (Fin.ext (show (2048 * b + r.val) % 65536 = 2048 * b + r.val by omega))))
    (congrArg l (congrArg (fun i : Fin 65536 => ix1 i)
      (Fin.ext (show (32768 + 2048 * b + r.val) % 65536 = 32768 + (2048 * b + r.val) by omega))))

/-- One step of the walk: the total after block `n` is the total before it — zero at the first block of a group — plus
    the block's sum. -/
theorem totalAfter_apply (x : Vec Ideal S65536x512 .f32) (l : Vec Ideal S65536 .i32) (n : ℕ) :
    totalAfter (F := Ideal) (rowsLo x) (rowsHi x) (labLo l) (labHi l) n (ix3 (0 : Fin 1) (0 : Fin 1) (0 : Fin 1))
      = (if n % 8 = 0 then 0
          else totalAfter (F := Ideal) (rowsLo x) (rowsHi x) (labLo l) (labHi l) (n - 1) (ix3 (0 : Fin 1) (0 : Fin 1) (0 : Fin 1)))
        + blockSum x l n := by
  cases n with
  | zero =>
    rw [totalAfter_zero, k0_pay2_apply, k0_pay1_apply]
    rfl
  | succ m =>
    rw [totalAfter_succ, k0_pay2_apply]
    refine congrArg (· + blockSum x l (m + 1)) ?_
    by_cases h : (m + 1) % 8 = 0
    · rw [if_pos h, if_pos h]; exact k0_pay1_apply _
    · rw [if_neg h, if_neg h, Nat.add_sub_cancel]

/-- Within a group the total accumulates: after block `8 p + i` (`i < 8`) it is the sum of the group's first `i + 1` block sums. -/
theorem totalAfter_group (x : Vec Ideal S65536x512 .f32) (l : Vec Ideal S65536 .i32) (p i : ℕ) (hi : i < 8) :
    totalAfter (F := Ideal) (rowsLo x) (rowsHi x) (labLo l) (labHi l) (8 * p + i) (ix3 (0 : Fin 1) (0 : Fin 1) (0 : Fin 1))
      = ∑ k ∈ Finset.range (i + 1), blockSum x l (8 * p + k) := by
  induction i with
  | zero =>
    rw [totalAfter_apply, if_pos (by omega), zero_add, Finset.sum_range_one]
  | succ i ih =>
    rw [← Nat.add_assoc, totalAfter_apply, if_neg (by omega), Nat.add_sub_cancel, ih (by omega),
      Finset.sum_range_succ _ (i + 1), Nat.add_assoc]

/-- Output cell `p` is the sum of the eight block sums of its group. -/
theorem cells_apply (x : Vec Ideal S65536x512 .f32) (l : Vec Ideal S65536 .i32) (p : Fin 2) :
    cells (F := Ideal) x l (ix3 p (0 : Fin 1) (0 : Fin 1)) = ∑ k : Fin 8, blockSum x l (8 * p.val + k.val) :=
  (totalAfter_group x l p.val 7 (by omega)).trans (Finset.sum_range fun k => blockSum x l (8 * p.val + k))

/-- Output cell `p` is the sum of the losses of its group's pairs, block by block. -/
theorem cells_eq_pairs (x : Vec Ideal S65536x512 .f32) (l : Vec Ideal S65536 .i32) (p : Fin 2) :
    cells (F := Ideal) x l (ix3 p (0 : Fin 1) (0 : Fin 1))
      = ∑ k : Fin 8, ∑ r : Fin 2048,
          lossAt x l ⟨2048 * (8 * p.val + k.val) + r.val, by have := p.isLt; have := k.isLt; have := r.isLt; omega⟩ := by
  rw [cells_apply]
  exact Finset.sum_congr rfl fun k _ => blockSum_eq x l (8 * p.val + k.val) (by have := p.isLt; have := k.isLt; omega)

end Cert.KernelIdeal.Pairs

end
-- ==== Proof.RefSum.lean ====
/-
  The reference, read on the extended reals: the sum over the 32768 pairs of the pair's loss.

  The reference slices the array into its first and second halves, takes the two row sums of every pair at once, selects
  between them by the labels, and sums the 32768 results from zero. Read at pair `r` each stage is the corresponding step
  of `pairLoss` on rows `r` and `32768 + r`; the two row sums start from the word `0.0`, which adds nothing.
-/
import proofs.«162703_j70763881169378_2_alg».proof.Proof.Gen.ReferenceIdeal.Read
import proofs.«162703_j70763881169378_2_alg».proof.Proof.PairSums

noncomputable section

open scoped BigOperators

namespace Cert.KernelIdeal.Pairs.Ref

open Idealize.ShloMosaic Idealize.ShloMosaic.ValueIdx Idealize.SL.Sem Cert.ReferenceIdeal Cert.ReferenceIdeal.Gen
  Cert.ReferenceIdeal.Read Cert.KernelIdeal.Pairs

/-! ## The index maps of the reference's stages at pair `r`, column `k` -/

theorem idx_lab_lo (r : Fin 32768) :
    idx_main_v2 (ix1 r) = ix1 (⟨r.val, by have := r.isLt; omega⟩ : Fin 65536) :=
  funext fun a => Fin.ext (by match a with | ⟨0, _⟩ => rfl)

theorem idx_lab_hi (r : Fin 32768) :
    idx_main_v3 (ix1 r) = ix1 (⟨32768 + r.val, by have := r.isLt; omega⟩ : Fin 65536) :=
  funext fun a => Fin.ext (by match a with | ⟨0, _⟩ => rfl)

theorem idx_row_lo (r : Fin 32768) (k : Fin 512) :
    idx_main_v0 (idx_main_v7 (ix1 r) k) = ix2 (⟨r.val, by have := r.isLt; omega⟩ : Fin 65536) k :=
  funext fun a => Fin.ext (by match a with | ⟨0, _⟩ => rfl | ⟨1, _⟩ => rfl)

theorem idx_row_hi (r : Fin 32768) (k : Fin 512) :
    idx_main_v1 (idx_main_v7 (ix1 r) k) = ix2 (⟨32768 + r.val, by have := r.isLt; omega⟩ : Fin 65536) k :=
  funext fun a => Fin.ext (by match a with | ⟨0, _⟩ => rfl | ⟨1, _⟩ => rfl)

theorem idx_row_lo' (r : Fin 32768) (k : Fin 512) :
    idx_main_v0 (idx_main_v11 (ix1 r) k) = ix2 (⟨r.val, by have := r.isLt; omega⟩ : Fin 65536) k :=
  funext fun a => Fin.ext (by match a with | ⟨0, _⟩ => rfl | ⟨1, _⟩ => rfl)

theorem idx_row_hi' (r : Fin 32768) (k : Fin 512) :
    idx_main_v1 (idx_main_v11 (ix1 r) k) = ix2 (⟨32768 + r.val, by have := r.isLt; omega⟩ : Fin 65536) k :=
  funext fun a => Fin.ext (by match a with | ⟨0, _⟩ => rfl | ⟨1, _⟩ => rfl)

/-! ## The two row sums of pair `r` -/

/-- The squared distance of pair `r`, from the word `0.0`. -/
theorem dist_apply (x : (⟨S65536x512, .f32⟩ : BufTy).Contents (Elt Ideal)) (r : Fin 32768) :
    val_main_v7 (F := Ideal) x (ix1 r)
      = Ideal.ofBits .f32 0x00000000#32
        + ∑ k : Fin 512,
            (x (ix2 (⟨r.val, by have := r.isLt; omega⟩ : Fin 65536) k) - x (ix2 (⟨32768 + r.val, by have := r.isLt; omega⟩ : Fin 65536) k))
            * (x (ix2 (⟨r.val, by have := r.isLt; omega⟩ : Fin 65536) k) - x (ix2 (⟨32768 + r.val, by have := r.isLt; omega⟩ : Fin 65536) k)) := by
  rw [val_main_v7_apply]
  refine congrArg₂ (· + ·) rfl (Finset.sum_congr rfl fun k _ => ?_)
  rw [val_main_v6_apply, val_main_v5_apply, val_main_v0_apply, val_main_v1_apply, idx_row_lo, idx_row_hi]
  rfl

/-- The second row sum of pair `r`, from the word `0.0`. -/
theorem margin_apply (x : (⟨S65536x512, .f32⟩ : BufTy).Contents (Elt Ideal)) (r : Fin 32768) :
    val_main_v11 (F := Ideal) x (ix1 r)
      = Ideal.ofBits .f32 0x00000000#32
        + ∑ k : Fin 512,
            (x (ix2 (⟨r.val, by have := r.isLt; omega⟩ : Fin 65536) k)
              - x (ix2 (⟨32768 + r.val, by have := r.isLt; omega⟩ : Fin 65536) k) * x (ix2 (⟨32768 + r.val, by have := r.isLt; omega⟩ : Fin 65536) k))
            * (x (ix2 (⟨r.val, by have := r.isLt; omega⟩ : Fin 65536) k)
              - x (ix2 (⟨32768 + r.val, by have := r.isLt; omega⟩ : Fin 65536) k) * x (ix2 (⟨32768 + r.val, by have := r.isLt; omega⟩ : Fin 65536) k)) := by
  rw [val_main_v11_apply]
  refine congrArg₂ (· + ·) rfl (Finset.sum_congr rfl fun k _ => ?_)
  rw [val_main_v10_apply, val_main_v9_apply, val_main_v8_apply, val_main_v0_apply, val_main_v1_apply, idx_row_lo', idx_row_hi']
  rfl

/-! ## The selected loss of pair `r`, and the total -/

/-- The reference's per-pair value is the pair's loss. -/
theorem pair_apply (x : (⟨S65536x512, .f32⟩ : BufTy).Contents (Elt Ideal)) (l : (⟨S65536, .i32⟩ : BufTy).Contents (Elt Ideal))
    (r : Fin 32768) : val_main_v16 (F := Ideal) x l (ix1 r) = lossAt x l r := by
  rw [val_main_v16_apply, val_main_v4_apply, val_main_v2_apply, val_main_v3_apply, idx_lab_lo, idx_lab_hi, dist_apply,
    val_main_v15_apply, val_main_v14_apply, val_main_v13_apply, val_main_v12_apply, margin_apply, val_main_call0_v0_apply]
  exact pairLoss_zero_add _ _ _ _

/-- THE REFERENCE'S TOTAL: the sum over the 32768 pairs, from the word `0.0`. -/
theorem total_apply (x : (⟨S65536x512, .f32⟩ : BufTy).Contents (Elt Ideal)) (l : (⟨S65536, .i32⟩ : BufTy).Contents (Elt Ideal))
    (i : S_.Idx) :
    val_main_v17 (F := Ideal) x l i = Ideal.ofBits .f32 0x00000000#32 + ∑ r : Fin 32768, lossAt x l r := by
  rw [val_main_v17_apply]
  refine congrArg₂ (· + ·) rfl ?_
  exact (sum_idx1 (val_main_v16 (F := Ideal) x l)).trans (Finset.sum_congr rfl fun r _ => pair_apply x l r)

end Cert.KernelIdeal.Pairs.Ref

end
-- ==== Proof.ValueEq.lean ====
/-
  The two programs compute the same number.

  The kernel's two cells are each the sum of a group's pair losses (8 blocks of 2048 pairs); the host sums the two cells
  from zero. The reference sums all 32768 pair losses from zero. The two sums are one sum regrouped, and what follows —
  the division by 131072 and the reshape — is the same on both sides and is carried along unopened.
-/
import proofs.«162703_j70763881169378_2_alg».proof.Proof.Totals
import proofs.«162703_j70763881169378_2_alg».proof.Proof.RefSum

noncomputable section

open scoped BigOperators

namespace Cert.KernelIdeal.Pairs

open Idealize.ShloMosaic Idealize.ShloMosaic.ValueIdx Cert.KernelIdeal Cert.KernelIdeal.Gen

/-- The host's sum of a `[2, 1, 1]` array from the word `0.0`: that word plus the two cells. -/
theorem hostSum_cells (y : FVec Ideal S2x1x1 .f32) (i : S_.Idx) :
    Host.reduceAdd (F := Ideal) y (constant (F := Ideal) S_ .f32 0x00000000#32) reducesTo_S2x1x1_S_d0_1_2 h_S_ i
      = Ideal.ofBits .f32 0x00000000#32 + ∑ p : Fin 2, y (ix3 p (0 : Fin 1) (0 : Fin 1)) := by
  simp only [Host.reduceAdd, Ideal.hostReduceAdd_def]
  refine (Ideal.hostReduceAdd_total reducesTo_S2x1x1_S_d0_1_2 (fun b => b.elim0) y _ i).trans ?_
  exact congrArg₂ (· + ·) rfl (sum_idx_n11 y)

/-- THE KERNEL'S TOTAL: the host's sum of the two cells is the sum over the 32768 pairs, from the word `0.0`. -/
theorem cells_total (x : Vec Ideal S65536x512 .f32) (l : Vec Ideal S65536 .i32) (i : S_.Idx) :
    Host.reduceAdd (F := Ideal) (cells (F := Ideal) x l) (constant (F := Ideal) S_ .f32 0x00000000#32)
        reducesTo_S2x1x1_S_d0_1_2 h_S_ i
      = Ideal.ofBits .f32 0x00000000#32 + ∑ r : Fin 32768, lossAt x l r := by
  rw [hostSum_cells]
  refine congrArg₂ (· + ·) rfl ?_
  rw [sum_pairs_regroup (fun r => lossAt x l r)]
  exact Finset.sum_congr rfl fun p _ => cells_eq_pairs x l p

/-- The kernel's cells, summed, divided and reshaped as the host does after the kernel, are the reference's result. -/
theorem finish_cells_eq_reference (x : Vec Ideal S65536x512 .f32) (l : Vec Ideal S65536 .i32) :
    finish (F := Ideal) (cells (F := Ideal) x l) = Cert.ReferenceIdeal.Read.val_main_v19 (F := Ideal) x l := by
  have h : Host.reduceAdd (F := Ideal) (cells (F := Ideal) x l) (constant (F := Ideal) S_ .f32 0x00000000#32)
        reducesTo_S2x1x1_S_d0_1_2 h_S_
      = Cert.ReferenceIdeal.Read.val_main_v17 (F := Ideal) x l :=
    funext fun i => (cells_total x l i).trans (Ref.total_apply x l i).symm
  unfold finish Cert.ReferenceIdeal.Read.val_main_v19 Cert.ReferenceIdeal.Read.val_main_v18
  rw [h]
  rfl

end Cert.KernelIdeal.Pairs

end
-- ==== Proof.lean ====
/-
  The certificate: the kernel and the reference compute the same contrastive loss.

  Both programs sum, over the 32768 pairs (row r, row 32768 + r) of x, the per-pair loss
      select(label r ≠ label (32768 + r), Σ_c (x1 − x2)², max(1 − sqrt(Σ_c (x1 − x2·x2)²), 0))
  and divide the sum by 131072. The reference sums all pairs at once; the kernel sums them 2048 at a time into a running
  total, eight blocks per output cell, and the host adds the two cells. At the ideal instance the two are one number,
  because addition of extended reals is commutative and associative (no finiteness is used: the precondition is never
  opened). The frames: each kernel program's run is the launch of its three segments (host operations, the region,
  host operations); the reference's is its straight line of host operations. The ideal pass rewrote nothing, so there is
  nothing to preserve.
-/
import proofs.«162703_j70763881169378_2_alg».proof.Defs
import proofs.«162703_j70763881169378_2_alg».proof.Proof.Gen.Kernel
import proofs.«162703_j70763881169378_2_alg».proof.Proof.Gen.KernelIdeal
import proofs.«162703_j70763881169378_2_alg».proof.Proof.Gen.ReferenceIdeal
import proofs.«162703_j70763881169378_2_alg».proof.Proof.Gen.ReferenceIdeal.Run
import proofs.«162703_j70763881169378_2_alg».proof.Proof.Gen.ReferenceIdeal.Read
import proofs.«162703_j70763881169378_2_alg».proof.Proof.Gen.Pre_finite_inputs
import proofs.«162703_j70763881169378_2_alg».proof.Proof.LaunchK
import proofs.«162703_j70763881169378_2_alg».proof.Proof.Result
import proofs.«162703_j70763881169378_2_alg».proof.Proof.ValueEq

noncomputable section

namespace Cert.Proof

open Idealize.ShloMosaic Idealize.ShloMosaic.TcCoe Idealize.SL.Sem

/-- The word-level kernel runs to its end and leaves both arguments as they were. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree, the kernel ends at the regrouped sum of the per-pair losses over 131072 and the reference
    at the plain sum over 131072: one number on the extended reals. -/
theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v19_eq]
  exact (Cert.KernelIdeal.Pairs.finish_cells_eq_reference _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
